-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1000x2x512 : Shape := ⟨3, ![1000, 2, 512]⟩
abbrev S1000x2 : Shape := ⟨2, ![1000, 2]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x2x512 : S_.BroadcastsInDim S1000x2x512 (![] : Fin 0 → Fin S1000x2x512.rank)
  reducesTo_S1000x2x512_S_d0_1_2 : S1000x2x512.ReducesTo [0, 1, 2] S_
  bcast_S_S1000x2 : S_.BroadcastsInDim S1000x2 (![] : Fin 0 → Fin S1000x2.rank)
  reducesTo_S1000x2_S_d0_1 : S1000x2.ReducesTo [0, 1] S_

variable [Facts]

def fn {F : FTy → Type} [FloatOps F] (main_arg0 : FVec F S16384x512 .f32) (main_arg1 : FVec F S1000x2x512 .f32) (main_arg2 : FVec F S1000x2 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x2x512 .f32 := Host.absf main_arg1
  let main_cst_0 : FVec F S_ .f32 := constant S_ .f32 0x7F800000#32
  let main_v5 : FVec F S1000x2x512 .f32 := broadcastInDim S1000x2x512 ![] bcast_S_S1000x2x512 main_cst_0
  let main_v6 : IVec S1000x2x512 1 := cmpf .olt main_v4 main_v5
  let main_c_1 : IVec S_ 1 := constantI S_ 1 1#1
  let main_v7 : IVec S_ 1 := (fun x v => Host.reduce IntOp.andi x v reducesTo_S1000x2x512_S_d0_1_2 h_S_) main_v6 main_c_1
  let main_v8 : IVec S_ 1 := andi main_v3 main_v7
  let main_v9 : FVec F S1000x2 .f32 := Host.absf main_arg2
  let main_cst_2 : FVec F S_ .f32 := constant S_ .f32 0x7F800000#32
  let main_v10 : FVec F S1000x2 .f32 := broadcastInDim S1000x2 ![] bcast_S_S1000x2 main_cst_2
  let main_v11 : IVec S1000x2 1 := cmpf .olt main_v9 main_v10
  let main_c_3 : IVec S_ 1 := constantI S_ 1 1#1
  let main_v12 : IVec S_ 1 := (fun x v => Host.reduce IntOp.andi x v reducesTo_S1000x2_S_d0_1 h_S_) main_v11 main_c_3
  let main_v13 : IVec S_ 1 := andi main_v8 main_v12
  main_v13
-- ==== Kernel.lean ====
abbrev S16384x512 : Shape := ⟨2, ![16384, 512]⟩
abbrev S1000x2x512 : Shape := ⟨3, ![1000, 2, 512]⟩
abbrev S1000x2 : Shape := ⟨2, ![1000, 2]⟩
abbrev S1000x1x512 : Shape := ⟨3, ![1000, 1, 512]⟩
abbrev S1000x512 : Shape := ⟨2, ![1000, 512]⟩
abbrev S512x1000 : Shape := ⟨2, ![512, 1000]⟩
abbrev S1000x1 : Shape := ⟨2, ![1000, 1]⟩
abbrev S1000 : Shape := ⟨1, ![1000]⟩
abbrev S1x1000 : Shape := ⟨2, ![1, 1000]⟩
abbrev S16384x1000 : Shape := ⟨2, ![16384, 1000]⟩
abbrev S512x512 : Shape := ⟨2, ![512, 512]⟩
abbrev S16384x1000x1 : Shape := ⟨3, ![16384, 1000, 1]⟩
abbrev S16384x1000x2 : Shape := ⟨3, ![16384, 1000, 2]⟩

abbrev nBuf : Space → Nat
  | .hbm => 22
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S1000x2x512, .f32⟩
  | .hbm, ⟨2, _⟩ => ⟨S1000x2, .f32⟩
  | .hbm, ⟨3, _⟩ => ⟨S1000x1x512, .f32⟩
  | .hbm, ⟨4, _⟩ => ⟨S1000x512, .f32⟩
  | .hbm, ⟨5, _⟩ => ⟨S512x1000, .f32⟩
  | .hbm, ⟨6, _⟩ => ⟨S512x1000, .bf16⟩
  | .hbm, ⟨7, _⟩ => ⟨S1000x1x512, .f32⟩
  | .hbm, ⟨8, _⟩ => ⟨S1000x512, .f32⟩
  | .hbm, ⟨9, _⟩ => ⟨S512x1000, .f32⟩
  | .hbm, ⟨10, _⟩ => ⟨S512x1000, .bf16⟩
  | .hbm, ⟨11, _⟩ => ⟨S1000x1, .f32⟩
  | .hbm, ⟨12, _⟩ => ⟨S1000, .f32⟩
  | .hbm, ⟨13, _⟩ => ⟨S1x1000, .f32⟩
  | .hbm, ⟨14, _⟩ => ⟨S1000x1, .f32⟩
  | .hbm, ⟨15, _⟩ => ⟨S1000, .f32⟩
  | .hbm, ⟨16, _⟩ => ⟨S1x1000, .f32⟩
  | .hbm, ⟨17, _⟩ => ⟨S16384x1000, .f32⟩
  | .hbm, ⟨18, _⟩ => ⟨S16384x1000, .f32⟩
  | .hbm, ⟨19, _⟩ => ⟨S16384x1000x1, .f32⟩
  | .hbm, ⟨20, _⟩ => ⟨S16384x1000x1, .f32⟩
  | .hbm, ⟨21, _⟩ => ⟨S16384x1000x2, .f32⟩
  | .local _ .vmem, ⟨0, _⟩ => ⟨S512x512, .f32⟩
  | .local _ .vmem, ⟨1, _⟩ => ⟨S512x512, .f32⟩
  | .local _ .vmem, ⟨2, _⟩ => ⟨S512x1000, .bf16⟩
  | .local _ .vmem, ⟨3, _⟩ => ⟨S512x1000, .bf16⟩
  | .local _ .vmem, ⟨4, _⟩ => ⟨S1x1000, .f32⟩
  | .local _ .vmem, ⟨5, _⟩ => ⟨S1x1000, .f32⟩
  | .local _ .vmem, ⟨6, _⟩ => ⟨S512x1000, .f32⟩
  | .local _ .vmem, ⟨7, _⟩ => ⟨S512x1000, .f32⟩
  | .local _ .vmem, ⟨8, _⟩ => ⟨S512x1000, .f32⟩
  | .local _ .vmem, ⟨9, _⟩ => ⟨S512x1000, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S1000x2x512_S1000x1x512_0_0_0 : S1000x2x512.Slices ![0, 0, 0] S1000x1x512
  shapeCasts_S1000x1x512_S1000x512 : S1000x1x512.ShapeCasts S1000x512
  transposes_S1000x512_S512x1000_1_0 : S1000x512.Transposes [1, 0] S512x1000
  bitsLt_bf16_f32 : FTy.bits .bf16 < FTy.bits .f32
  slices_S1000x2x512_S1000x1x512_0_1_0 : S1000x2x512.Slices ![0, 1, 0] S1000x1x512
  slices_S1000x2_S1000x1_0_0 : S1000x2.Slices ![0, 0] S1000x1
  shapeCasts_S1000x1_S1000 : S1000x1.ShapeCasts S1000
  shapeCasts_S1000_S1x1000 : S1000.ShapeCasts S1x1000
  slices_S1000x2_S1000x1_0_1 : S1000x2.Slices ![0, 1] S1000x1
  inb_S512x512_S512x512_0_0 : ∀ a, (![0, 0] : Fin 2 → Nat) a + S512x512.size a ≤ S512x512.size a
  h_S512x512 : 0 < S512x512.numel
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  bcast_S16384x1000_S16384x1000x1_0_1 : S16384x1000.BroadcastsInDim S16384x1000x1 (![0, 1] : Fin 2 → Fin S16384x1000x1.rank)
  concatenates_S16384x1000x1_S16384x1000x1_S16384x1000x2_d2 : Shape.Concatenates [S16384x1000x1, S16384x1000x1] S16384x1000x2 2
  dot_S512x512_S512x1000_S512x1000_1_0_0_1_n_n_wf : DotDims.WF S512x512 S512x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S512x1000.size a
  hwx0_1 : ∀ i : grid0.Coords, EltTy.bits .bf16 = 32 ∨ (Rect.block (s := S512x1000) S512x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1000.size a ≤ S512x1000.size a
  hwx0_2 : ∀ i : grid0.Coords, EltTy.bits .bf16 = 32 ∨ (Rect.block (s := S512x1000) S512x1000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1000.size a ≤ S1x1000.size a
  hwx0_4 : ∀ i : grid0.Coords, EltTy.bits .f32 = 32 ∨ (Rect.block (s := S1x1000) S1x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1000.size a ≤ S16384x1000.size a
  hwx0_5 : ∀ i : grid0.Coords, EltTy.bits .f32 = 32 ∨ (Rect.block (s := S16384x1000) S512x1000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1000.size a ≤ S16384x1000.size a
  hwx0_6 : ∀ i : grid0.Coords, EltTy.bits .f32 = 32 ∨ (Rect.block (s := S16384x1000) S512x1000.size (cc0_transform_6 i) (hinb0_6 i)).WholeWords (EltTy.packing .f32)

variable [Facts₀]

def dot_S512x512_S512x1000_S512x1000_1_0_0_1_n_n : DotDims S512x512 S512x1000 S512x1000 where
  lhsContracting := [1]
  rhsContracting := [0]
  lhsNonContracting := [0]
  rhsNonContracting := [1]
  lhsBatch := []
  rhsBatch := []
  wf := dot_S512x512_S512x1000_S512x1000_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S512x1000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S512x1000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S1000x2x512 : Shape := ⟨3, ![1000, 2, 512]⟩
abbrev S1000x2 : Shape := ⟨2, ![1000, 2]⟩
abbrev S16384x1000x2 : Shape := ⟨3, ![16384, 1000, 2]⟩
abbrev S1x1000x2 : Shape := ⟨3, ![1, 1000, 2]⟩
abbrev S_ : Shape := ⟨0, ![]⟩
abbrev S16384x1000 : Shape := ⟨2, ![16384, 1000]⟩
abbrev S16384x1000x1 : Shape := ⟨3, ![16384, 1000, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1000x2x512, .f32⟩
  | .hbm, ⟨2, _⟩ => ⟨S1000x2, .f32⟩
  | .hbm, ⟨3, _⟩ => ⟨S16384x1000x2, .f32⟩
  | .hbm, ⟨4, _⟩ => ⟨S1x1000x2, .f32⟩
  | .hbm, ⟨5, _⟩ => ⟨S16384x1000x2, .f32⟩
  | .hbm, ⟨6, _⟩ => ⟨S16384x1000x2, .f32⟩
  | .hbm, ⟨7, _⟩ => ⟨S_, .f32⟩
  | .hbm, ⟨8, _⟩ => ⟨S16384x1000, .f32⟩
  | .hbm, ⟨9, _⟩ => ⟨S_, .f32⟩
  | .hbm, ⟨10, _⟩ => ⟨S16384x1000, .f32⟩
  | .hbm, ⟨11, _⟩ => ⟨S16384x1000, .f32⟩
  | .hbm, ⟨12, _⟩ => ⟨S16384x1000x1, .f32⟩
  | .hbm, ⟨13, _⟩ => ⟨S16384x1000x2, .f32⟩
  | .hbm, ⟨14, _⟩ => ⟨S16384x1000x2, .f32⟩
  | .hbm, ⟨15, _⟩ => ⟨S16384x1000x2, .f32⟩
  | .hbm, ⟨16, _⟩ => ⟨S_, .f32⟩
  | .hbm, ⟨17, _⟩ => ⟨S16384x1000, .f32⟩
  | .hbm, ⟨18, _⟩ => ⟨S16384x1000x1, .f32⟩
  | .hbm, ⟨19, _⟩ => ⟨S16384x1000x1, .f32⟩
  | .hbm, ⟨20, _⟩ => ⟨S16384x1000x2, .f32⟩
  | .hbm, ⟨21, _⟩ => ⟨S16384x1000x2, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v4 : Ref sig .tc := ⟨.hbm, 21, rfl⟩

abbrev nD : Nat := 1
abbrev τ : Topo := Topo.v7x

variable {F : FTy → Type} [FloatOps F]

class Facts₀ : Prop where
  bcast_S1000x2_S1x1000x2_1_2 : S1000x2.BroadcastsInDim S1x1000x2 (![1, 2] : Fin 2 → Fin S1x1000x2.rank)
  bcast_S1x1000x2_S16384x1000x2_0_1_2 : S1x1000x2.BroadcastsInDim S16384x1000x2 (![0, 1, 2] : Fin 3 → Fin S16384x1000x2.rank)
  reducesTo_S16384x1000x2_S16384x1000_d2 : S16384x1000x2.ReducesTo [2] S16384x1000
  h_S_ : 0 < S_.numel
  bcast_S_S16384x1000 : S_.BroadcastsInDim S16384x1000 (![] : Fin 0 → Fin S16384x1000.rank)
  bcast_S16384x1000_S16384x1000x1_0_1 : S16384x1000.BroadcastsInDim S16384x1000x1 (![0, 1] : Fin 2 → Fin S16384x1000x1.rank)
  bcast_S16384x1000x1_S16384x1000x2_0_1_2 : S16384x1000x1.BroadcastsInDim S16384x1000x2 (![0, 1, 2] : Fin 3 → Fin S16384x1000x2.rank)
  dot_S16384x512_S1000x2x512_S16384x1000x2_1_2_0_01_n_n_wf : DotDims.WF S16384x512 S1000x2x512 S16384x1000x2 [1] [2] [0] [0, 1] [] []

variable [Facts₀]

def dot_S16384x512_S1000x2x512_S16384x1000x2_1_2_0_01_n_n : DotDims S16384x512 S1000x2x512 S16384x1000x2 where
  lhsContracting := [1]
  rhsContracting := [2]
  lhsNonContracting := [0]
  rhsNonContracting := [0, 1]
  lhsBatch := []
  rhsBatch := []
  wf := dot_S16384x512_S1000x2x512_S16384x1000x2_1_2_0_01_n_n_wf

class Facts : Prop extends Facts₀ where

variable [Facts]
-- ==== Proof.LibMoment.lean ====
import Idealize.ShloMosaic.PureOps.Ideal
import Mathlib.Data.EReal.Basic
import Mathlib.Data.EReal.Operations
import Mathlib.Data.EReal.Inv
import Mathlib.Algebra.BigOperators.Group.Finset.Basic
import Mathlib.Tactic

/-!
# Finite extended reals and the second-moment law

`IsReal x` says that an extended real is a real number. The finite values are closed under
the ring operations, `max`, finite sums, division by a nonzero real and the reciprocal square
root of a positive value. On finite values every operation is the operation of `ℝ`, so an
identity between extended reals reduces to the identity between the real witnesses.

The moment law: for `n` finite values `y r` with mean `μ = (∑ y) / n` and a finite scale `s`,
the mean of the squared deviations from `s · μ` is

  `(∑ (y r - s μ)²) / n = (∑ y r²) / n - μ² (2 s - s²)`,

because `∑ (y r - t)² = ∑ y r² - 2 t ∑ y r + n t²` and `∑ y r = n μ`.
-/

noncomputable section

namespace Cert.LibMoment

open Idealize.ShloMosaic
open scoped BigOperators

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, EReal.coe_zero.symm⟩

theorem isReal_one : IsReal (1 : EReal) := ⟨1, rfl⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- A value that is neither infinity is a real number. -/
theorem isReal_of_ne {x : EReal} (h1 : x ≠ ⊤) (h2 : x ≠ ⊥) : IsReal x :=
  ⟨x.toReal, (EReal.coe_toReal h1 h2).symm⟩

theorem isReal_iff {x : EReal} : IsReal x ↔ x ≠ ⊤ ∧ x ≠ ⊥ :=
  ⟨fun h => ⟨h.ne_top, h.ne_bot⟩, fun h => isReal_of_ne h.1 h.2⟩

/-- A value whose absolute value `max x (-x)` is below `⊤` is a real number. -/
theorem isReal_of_abs_lt_top {x : EReal} (h : max x (-x) < ⊤) : IsReal x := by
  have h1 : x < ⊤ := lt_of_le_of_lt (le_max_left _ _) h
  have h2 : -x < ⊤ := lt_of_le_of_lt (le_max_right _ _) h
  refine isReal_of_ne h1.ne ?_
  intro hx
  rw [hx, EReal.neg_bot] at h2
  exact lt_irrefl _ h2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The coercion of reals commutes with a finite sum. -/
theorem coe_finset_sum {α : Type*} (s : Finset α) (f : α → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A finite sum of real numbers is a real number. -/
theorem IsReal.sum {α : Type*} (s : Finset α) (f : α → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add
      (ih (fun i hi => h i (Finset.mem_insert_of_mem hi)))

theorem IsReal.sum' {α : Type*} (s : Finset α) (f : α → EReal) (h : ∀ i, IsReal (f i)) :
    IsReal (∑ i ∈ s, f i) :=
  IsReal.sum s f (fun i _ => h i)

theorem IsReal.sum_univ {α : Type*} [Fintype α] (f : α → EReal) (h : ∀ i, IsReal (f i)) :
    IsReal (∑ i, f i) :=
  IsReal.sum Finset.univ f (fun i _ => h i)

/-- Division of a real number by a nonzero real is a real number. -/
theorem IsReal.div_coe {x : EReal} (hx : IsReal x) {n : ℝ} (hn : n ≠ 0) :
    IsReal (Ideal.div x (n : EReal)) := by
  rw [Ideal.div_coe hn]
  exact hx.mul (isReal_coe _)

/-- The reciprocal square root of a positive real number is a real number. -/
theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact isReal_coe _

/-- Sum of squared deviations from a constant `t`, over the reals:
    `∑ (a r - t)² = ∑ a r² - 2 t ∑ a r + n t²`. -/
theorem sum_sq_dev {ι : Type} [Fintype ι] (a : ι → ℝ) (t : ℝ) :
    ∑ r, (a r - t) * (a r - t)
      = (∑ r, a r * a r) - 2 * t * (∑ r, a r) + (Fintype.card ι : ℝ) * (t * t) := by
  have h : ∀ r, (a r - t) * (a r - t) = a r * a r - 2 * t * a r + t * t := fun r => by ring
  simp only [h, Finset.sum_add_distrib, Finset.sum_sub_distrib, ← Finset.mul_sum,
    Finset.sum_const, Finset.card_univ, nsmul_eq_mul]
  ring

/-- The moment law over the reals. -/
theorem var_eq_real {ι : Type} [Fintype ι] (n : ℝ) (hn : n = (Fintype.card ι : ℝ)) (hn0 : n ≠ 0)
    (a : ι → ℝ) (m : ℝ) :
    (∑ r, (a r - m * ((∑ r, a r) * (1 / n))) * (a r - m * ((∑ r, a r) * (1 / n)))) * (1 / n)
      = (∑ r, a r * a r) * (1 / n)
        - ((∑ r, a r) * (1 / n)) * ((∑ r, a r) * (1 / n)) * (2 * m - m * m) := by
  rw [sum_sq_dev, ← hn]
  field_simp
  ring

/-- THE MOMENT LAW: the mean of the squared deviations from `ms · mean` is the mean of the
    squares minus `mean² · (2 ms - ms²)`. -/
theorem var_eq {ι : Type} [Fintype ι] (n : ℝ) (hn : n = (Fintype.card ι : ℝ))
    (hpos : 0 < Fintype.card ι)
    (y : ι → EReal) (hy : ∀ r, IsReal (y r)) (ms : EReal) (hms : IsReal ms) :
    Ideal.div (∑ r, (y r - ms * Ideal.div (∑ r, y r) (n : EReal))
        * (y r - ms * Ideal.div (∑ r, y r) (n : EReal))) (n : EReal)
      = Ideal.div (∑ r, y r * y r) (n : EReal)
        - (Ideal.div (∑ r, y r) (n : EReal) * Ideal.div (∑ r, y r) (n : EReal))
          * (((2 : ℝ) : EReal) * ms - ms * ms) := by
  choose a ha using hy
  obtain ⟨m, rfl⟩ := hms
  have hy' : y = fun r => ((a r : ℝ) : EReal) := funext ha
  subst hy'
  have hn0 : n ≠ 0 := by
    rw [hn]
    exact_mod_cast hpos.ne'
  simp only [Ideal.div_coe hn0, coe_finset_sum, ← EReal.coe_mul, ← EReal.coe_sub]
  rw [EReal.coe_eq_coe_iff]
  exact var_eq_real n hn hn0 a m

end Cert.LibMoment
-- ==== Proof.PairLogSoftmax.lean ====
/-
  The log-softmax of a pair of extended reals, in two arrangements.

  For a pair `l 0, l 1` with maximum `M`, the log-softmax of entry `t` is `l t - M - log (exp (l 0 - M) + exp (l 1 - M))`.
  One arrangement subtracts the log-sum-exp `M + log (…)` in one step (`foldedForm`); the other first shifts every entry
  by the maximum — taken as a fold of `max` from `⊥`, joined once more with `⊥` — and then subtracts the logarithm of
  `0 +` the sum of the shifted exponentials (`shiftedForm`). On REAL entries both are the same real number: the maximum of
  two reals is real, the exponentials are positive reals, so their sum is a positive real whose logarithm is real, and
  `a - (M + s) = (a - M) - s` in `ℝ`. (At an infinite entry the two arrangements differ, since `⊤ - ⊤` is not `0` on the
  extended reals: the law is stated for real entries only.)
-/
import Idealize.ShloMosaic.PureOps.Ideal
import proofs.«150298_j61838939127881_2_alg».proof.Proof.LibMoment

noncomputable section

namespace Cert.PairLogSoftmax

open Idealize.ShloMosaic Cert.LibMoment
open scoped BigOperators

/-- Entry `lt` of the pair `(l0, l1)` minus the pair's log-sum-exp `max + log (exp (l0 - max) + exp (l1 - max))`. -/
def foldedForm (l0 l1 lt : EReal) : EReal :=
  lt - (max l0 l1 + Ideal.log (Ideal.exp (l0 - max l0 l1) + Ideal.exp (l1 - max l0 l1)))

/-- The maximum of a pair as a fold of `max` from `⊥`, joined with `⊥` once more. -/
def foldMax (l : Fin 2 → EReal) : EReal := max ⊥ ((Finset.univ : Finset (Fin 2)).fold max ⊥ l)

/-- Entry `t` shifted by the maximum, minus the logarithm of `0 +` the sum of the shifted exponentials. -/
def shiftedForm (l : Fin 2 → EReal) (t : Fin 2) : EReal :=
  (l t - foldMax l) - Ideal.log (0 + ∑ k : Fin 2, Ideal.exp (l k - foldMax l))

/-- The fold of `max` over a pair is the maximum of its two entries. -/
theorem foldMax_eq (l : Fin 2 → EReal) : foldMax l = max (l 0) (l 1) := by
  unfold foldMax
  rw [show (Finset.univ : Finset (Fin 2)) = {0, 1} from rfl, Finset.fold_insert (by decide), Finset.fold_singleton,
    max_eq_left (bot_le : (⊥ : EReal) ≤ l 1), max_eq_right (bot_le : (⊥ : EReal) ≤ max (l 0) (l 1))]

/-- On real entries the two arrangements are one real number. -/
theorem shifted_eq_folded (l : Fin 2 → EReal) (h : ∀ k, IsReal (l k)) (t : Fin 2) :
    shiftedForm l t = foldedForm (l 0) (l 1) (l t) := by
  obtain ⟨a0, h0⟩ := h 0
  obtain ⟨a1, h1⟩ := h 1
  obtain ⟨b, hb⟩ := h t
  have hmax : max (a0 : EReal) (a1 : EReal) = ((max a0 a1 : ℝ) : EReal) :=
    (EReal.coe_strictMono.monotone.map_max).symm
  unfold shiftedForm foldedForm
  rw [foldMax_eq, Fin.sum_univ_two, hb, h0, h1, hmax, ← EReal.coe_sub, ← EReal.coe_sub, ← EReal.coe_sub,
    Ideal.exp_coe, Ideal.exp_coe, ← EReal.coe_add, zero_add, Ideal.log_coe,
    if_neg (not_le.mpr (add_pos (Real.exp_pos _) (Real.exp_pos _))), ← EReal.coe_sub, ← EReal.coe_add, ← EReal.coe_sub]
  congr 1
  ring

end Cert.PairLogSoftmax

end
-- ==== Proof.Spec.lean ====
/-
  The classifier's result as ONE function of its three arguments, index by index.

  With `x : [16384, 512]`, `W : [1000, 2, 512]` and `b : [1000, 2]`, the logit of row `r`, class `c` and column `t` is
  `logit r c t = (∑ k, x (r, k) · W (c, t, k)) + b (c, t)`, and the result at `(r, c, t)` is the log-softmax of the pair
  `(logit r c 0, logit r c 1)` at its entry `t`. `result` states it in the folded arrangement, `resultShifted` in the
  shifted one (Proof/PairLogSoftmax.lean); they agree when every argument entry is a real number, because then every
  logit is one: a finite sum of products of reals, plus a real.
-/
import Idealize.ShloMosaic.Lib.ValueIdx
import proofs.«150298_j61838939127881_2_alg».proof.Proof.PairLogSoftmax

noncomputable section

namespace Cert.ClassifierSpec

open Idealize.ShloMosaic Idealize.ShloMosaic.ValueIdx Cert.PairLogSoftmax Cert.LibMoment
open scoped BigOperators

/-- The logit of row `r`, class `c`, column `t`: the row of `x` against the weight vector `W (c, t, ·)`, plus the bias. -/
def logit (x : (⟨2, ![16384, 512]⟩ : Shape).Idx → EReal) (W : (⟨3, ![1000, 2, 512]⟩ : Shape).Idx → EReal)
    (b : (⟨2, ![1000, 2]⟩ : Shape).Idx → EReal) (r : Fin 16384) (c : Fin 1000) (t : Fin 2) : EReal :=
  (∑ k : Fin 512, x (ix2 r k) * W (ix3 c t k)) + b (ix2 c t)

/-- The result at `(r, c, t)`: entry `t` of the pair of logits minus the pair's log-sum-exp. -/
def resultAt (x : (⟨2, ![16384, 512]⟩ : Shape).Idx → EReal) (W : (⟨3, ![1000, 2, 512]⟩ : Shape).Idx → EReal)
    (b : (⟨2, ![1000, 2]⟩ : Shape).Idx → EReal) (r : Fin 16384) (c : Fin 1000) (t : Fin 2) : EReal :=
  foldedForm (logit x W b r c 0) (logit x W b r c 1) (logit x W b r c t)

/-- The whole result array. -/
def result (x : (⟨2, ![16384, 512]⟩ : Shape).Idx → EReal) (W : (⟨3, ![1000, 2, 512]⟩ : Shape).Idx → EReal)
    (b : (⟨2, ![1000, 2]⟩ : Shape).Idx → EReal) : (⟨3, ![16384, 1000, 2]⟩ : Shape).Idx → EReal :=
  fun i => resultAt x W b (i 0) (i 1) (i 2)

/-- The same in the shifted arrangement. -/
def resultShiftedAt (x : (⟨2, ![16384, 512]⟩ : Shape).Idx → EReal) (W : (⟨3, ![1000, 2, 512]⟩ : Shape).Idx → EReal)
    (b : (⟨2, ![1000, 2]⟩ : Shape).Idx → EReal) (r : Fin 16384) (c : Fin 1000) (t : Fin 2) : EReal :=
  shiftedForm (fun k => logit x W b r c k) t

/-- A logit of real arguments is a real number. -/
theorem isReal_logit {x : (⟨2, ![16384, 512]⟩ : Shape).Idx → EReal} {W : (⟨3, ![1000, 2, 512]⟩ : Shape).Idx → EReal}
    {b : (⟨2, ![1000, 2]⟩ : Shape).Idx → EReal} (hx : ∀ i, IsReal (x i)) (hW : ∀ i, IsReal (W i)) (hb : ∀ i, IsReal (b i))
    (r : Fin 16384) (c : Fin 1000) (t : Fin 2) : IsReal (logit x W b r c t) :=
  (IsReal.sum_univ _ fun k => (hx _).mul (hW _)).add (hb _)

/-- On real arguments the two arrangements give one result. -/
theorem resultShiftedAt_eq {x : (⟨2, ![16384, 512]⟩ : Shape).Idx → EReal} {W : (⟨3, ![1000, 2, 512]⟩ : Shape).Idx → EReal}
    {b : (⟨2, ![1000, 2]⟩ : Shape).Idx → EReal} (hx : ∀ i, IsReal (x i)) (hW : ∀ i, IsReal (W i)) (hb : ∀ i, IsReal (b i))
    (r : Fin 16384) (c : Fin 1000) (t : Fin 2) : resultShiftedAt x W b r c t = resultAt x W b r c t :=
  shifted_eq_folded (fun k => logit x W b r c k) (fun k => isReal_logit hx hW hb r c k) t

end Cert.ClassifierSpec

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.KernelPayload.lean ====
/-
  The kernel body's stored values at an entry of the block.

  At one grid point the body holds a `[512, 512]` block of `x`, the two `[512, 1000]` weight matrices (column `q` of
  matrix `t` is the weight vector of class `q`, column `t`) and the two `[1, 1000]` bias rows. Entry `(p, q)` of each of
  its two matrix products into a zero accumulator, plus the bias row broadcast down the rows, is the block's logit
  `blockLogit = (∑ i, x (p, i) · w (i, q)) + b (0, q)`; the two stored blocks are, entry by entry, the pair of logits'
  log-softmax in the folded arrangement (Proof/PairLogSoftmax.lean): the first stores entry 0, the second entry 1.
  A change of float format is the identity on the extended reals, so the narrowed `x` block is the block.
-/
import proofs.«150298_j61838939127881_2_alg».proof.Proof.Gen.KernelIdeal.Skeleton
import proofs.«150298_j61838939127881_2_alg».proof.Proof.LibDot
import proofs.«150298_j61838939127881_2_alg».proof.Proof.PairLogSoftmax
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.PairLogSoftmax
open scoped BigOperators

/-! ## The matrix product's index facts -/

theorem lhs0 (j : S512x1000.Idx) (q : dot_S512x512_S512x1000_S512x1000_1_0_0_1_n_n.contr.Idx) :
    (dot_S512x512_S512x1000_S512x1000_1_0_0_1_n_n.lhsIdx j q 0).val = (j 0).val := by
  unfold DotDims.lhsIdx
  rw [dif_neg (show ¬(0 : Fin S512x512.rank) ∈ dot_S512x512_S512x1000_S512x1000_1_0_0_1_n_n.lhsBatch by decide),
    dif_pos (show (0 : Fin S512x512.rank) ∈ dot_S512x512_S512x1000_S512x1000_1_0_0_1_n_n.lhsNonContracting by decide)]
  rfl

theorem lhs1 (j : S512x1000.Idx) (q : dot_S512x512_S512x1000_S512x1000_1_0_0_1_n_n.contr.Idx) :
    (dot_S512x512_S512x1000_S512x1000_1_0_0_1_n_n.lhsIdx j q 1).val = (q ⟨0, by decide⟩).val :=
  dot_S512x512_S512x1000_S512x1000_1_0_0_1_n_n.lhsIdx_val_of_single rfl j q

theorem rhs0 (j : S512x1000.Idx) (q : dot_S512x512_S512x1000_S512x1000_1_0_0_1_n_n.contr.Idx) :
    (dot_S512x512_S512x1000_S512x1000_1_0_0_1_n_n.rhsIdx j q 0).val = (q ⟨0, by decide⟩).val :=
  dot_S512x512_S512x1000_S512x1000_1_0_0_1_n_n.rhsIdx_val_of_single rfl j q

theorem rhs1 (j : S512x1000.Idx) (q : dot_S512x512_S512x1000_S512x1000_1_0_0_1_n_n.contr.Idx) :
    (dot_S512x512_S512x1000_S512x1000_1_0_0_1_n_n.rhsIdx j q 1).val = (j 1).val := by
  unfold DotDims.rhsIdx
  rw [dif_neg (show ¬(1 : Fin S512x1000.rank) ∈ dot_S512x512_S512x1000_S512x1000_1_0_0_1_n_n.rhsBatch by decide),
    dif_pos (show (1 : Fin S512x1000.rank) ∈ dot_S512x512_S512x1000_S512x1000_1_0_0_1_n_n.rhsNonContracting by decide)]
  rfl

/-! ## A logit inside the block -/

/-- Row `p` of the `x` block against column `q` of a weight matrix, plus the bias row's entry `q`. -/
def blockLogit (x0 : Vec Ideal S512x512 .f32) (w : Vec Ideal S512x1000 .bf16) (b : Vec Ideal S1x1000 .f32) (p : Fin 512)
    (q : Fin 1000) : EReal :=
  (∑ i : Fin 512, x0 (ix2 p i) * w (ix2 i q)) + b (ix2 (0 : Fin 1) q)

/-- The bias row broadcast down the 512 rows, at `(p, q)`: the row's entry `q`. -/
theorem biasRows_apply (b : Vec Ideal S1x1000 .f32) (h : S1x1000.Broadcasts S512x1000) (p : Fin 512) (q : Fin 1000) :
    broadcastTo S512x1000 b h (ix2 p q) = b (ix2 (0 : Fin 1) q) :=
  broadcastTo_apply b h (ix2 p q) (ix2 (0 : Fin 1) q) fun a => by
    match a with
    | ⟨0, _⟩ => show (0 : Nat) = if (1 : Nat) = 1 then 0 else _; rw [if_pos rfl]
    | ⟨1, _⟩ => show q.val = if (1000 : Nat) = 1 then 0 else q.val; rw [if_neg (by decide)]

/-- The product into a zero accumulator plus the broadcast bias, at `(p, q)`. -/
theorem productPlusBias_apply (x0 : Vec Ideal S512x512 .f32) (w : Vec Ideal S512x1000 .bf16) (b : Vec Ideal S1x1000 .f32)
    (h1 : S512x1000.ShapeCasts S512x1000) (h2 : S1x1000.ShapeCasts S1x1000) (h3 : S1x1000.Broadcasts S512x1000)
    (hb : FTy.bits .bf16 < FTy.bits .f32) (p : Fin 512) (q : Fin 1000) :
    addf (F := Ideal) (matmul dot_S512x512_S512x1000_S512x1000_1_0_0_1_n_n none (truncf .bf16 x0 hb) (shapeCast S512x1000 w h1 : FVec Ideal S512x1000 .bf16)
        (constant S512x1000 .f32 0x00000000#32))
      (broadcastTo S512x1000 (shapeCast S1x1000 b h2 : FVec Ideal S1x1000 .f32) h3) (ix2 p q) = blockLogit x0 w b p q := by
  rw [shapeCast_self, shapeCast_self]
  show _ + _ = _
  rw [biasRows_apply]
  exact congrArg (· + b (ix2 (0 : Fin 1) q))
    (Cert.LibDot.matmul_zero_apply dot_S512x512_S512x1000_S512x1000_1_0_0_1_n_n rfl rfl lhs0 lhs1 rhs0 rhs1 none
      (truncf .bf16 x0 hb) w p q)

/-- The first logits block at `(p, q)`. -/
theorem pay2_apply (x0 : Vec Ideal S512x512 .f32) (w : Vec Ideal S512x1000 .bf16) (b : Vec Ideal S1x1000 .f32)
    (p : Fin 512) (q : Fin 1000) : k0_pay2 (F := Ideal) x0 w b (ix2 p q) = blockLogit x0 w b p q := by
  unfold k0_pay2 k0_pay1
  exact productPlusBias_apply x0 w b _ _ _ _ p q

/-- The second logits block at `(p, q)`. -/
theorem pay3_apply (x0 : Vec Ideal S512x512 .f32) (w : Vec Ideal S512x1000 .bf16) (b : Vec Ideal S1x1000 .f32)
    (p : Fin 512) (q : Fin 1000) : k0_pay3 (F := Ideal) x0 w b (ix2 p q) = blockLogit x0 w b p q := by
  unfold k0_pay3 k0_pay1
  exact productPlusBias_apply x0 w b _ _ _ _ p q

/-- The pair's log-sum-exp block at `(p, q)`. -/
theorem pay4_apply (x0 : Vec Ideal S512x512 .f32) (w0 : Vec Ideal S512x1000 .bf16) (b0 : Vec Ideal S1x1000 .f32)
    (w1 : Vec Ideal S512x1000 .bf16) (b1 : Vec Ideal S1x1000 .f32) (p : Fin 512) (q : Fin 1000) :
    k0_pay4 (F := Ideal) x0 w0 b0 w1 b1 (ix2 p q)
      = max (blockLogit x0 w0 b0 p q) (blockLogit x0 w1 b1 p q)
        + Ideal.log (Ideal.exp (blockLogit x0 w0 b0 p q - max (blockLogit x0 w0 b0 p q) (blockLogit x0 w1 b1 p q))
          + Ideal.exp (blockLogit x0 w1 b1 p q - max (blockLogit x0 w0 b0 p q) (blockLogit x0 w1 b1 p q))) := by
  unfold k0_pay4
  show max (k0_pay2 x0 w0 b0 (ix2 p q)) (k0_pay3 x0 w1 b1 (ix2 p q))
      + Ideal.log (Ideal.exp (k0_pay2 x0 w0 b0 (ix2 p q) - max (k0_pay2 x0 w0 b0 (ix2 p q)) (k0_pay3 x0 w1 b1 (ix2 p q)))
        + Ideal.exp (k0_pay3 x0 w1 b1 (ix2 p q) - max (k0_pay2 x0 w0 b0 (ix2 p q)) (k0_pay3 x0 w1 b1 (ix2 p q)))) = _
  rw [pay2_apply, pay3_apply]

/-- The block stored to the first output at `(p, q)`: entry 0 of the pair's log-softmax. -/
theorem pay5_apply (x0 : Vec Ideal S512x512 .f32) (w0 : Vec Ideal S512x1000 .bf16) (b0 : Vec Ideal S1x1000 .f32)
    (w1 : Vec Ideal S512x1000 .bf16) (b1 : Vec Ideal S1x1000 .f32) (p : Fin 512) (q : Fin 1000) :
    k0_pay5 (F := Ideal) x0 w0 b0 w1 b1 (ix2 p q)
      = foldedForm (blockLogit x0 w0 b0 p q) (blockLogit x0 w1 b1 p q) (blockLogit x0 w0 b0 p q) := by
  unfold k0_pay5 foldedForm
  show k0_pay2 x0 w0 b0 (ix2 p q) - k0_pay4 x0 w0 b0 w1 b1 (ix2 p q) = _
  rw [pay2_apply, pay4_apply]

/-- The block stored to the second output at `(p, q)`: entry 1 of the pair's log-softmax. -/
theorem pay6_apply (x0 : Vec Ideal S512x512 .f32) (w0 : Vec Ideal S512x1000 .bf16) (b0 : Vec Ideal S1x1000 .f32)
    (w1 : Vec Ideal S512x1000 .bf16) (b1 : Vec Ideal S1x1000 .f32) (p : Fin 512) (q : Fin 1000) :
    k0_pay6 (F := Ideal) x0 w0 b0 w1 b1 (ix2 p q)
      = foldedForm (blockLogit x0 w0 b0 p q) (blockLogit x0 w1 b1 p q) (blockLogit x0 w1 b1 p q) := by
  unfold k0_pay6 foldedForm
  show k0_pay3 x0 w1 b1 (ix2 p q) - k0_pay4 x0 w0 b0 w1 b1 (ix2 p q) = _
  rw [pay3_apply, pay4_apply]

end Cert.KernelIdeal.Payload

end
-- ==== Proof.KernelEntry.lean ====
/-
  The arrays the kernel's region finds, read at an index.

  Before the region the host cuts the weight tensor `W : [1000, 2, 512]` into its two column slices, drops the unit axis,
  transposes each to `[512, 1000]` and narrows it (the identity on the extended reals): entry `(k, q)` of matrix `t` is
  `W (q, t, k)`. It cuts the bias `b : [1000, 2]` into its two columns and lays each out as a row `[1, 1000]`: entry
  `(0, q)` of row `t` is `b (q, t)`. The `x` array is found as launched.
-/
import proofs.«150298_j61838939127881_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

/-- A column slice of the weight tensor with the unit axis dropped, transposed and narrowed, at `(k, q)`. -/
theorem weightMatrix_apply (A : S1000x2x512.Idx → EReal) (o : Nat) (t : Fin 2) (ho : o = t.val)
    (hs : S1000x2x512.Slices ![0, o, 0] S1000x1x512) (hc : S1000x1x512.ShapeCasts S1000x512)
    (ht : S1000x512.Transposes [1, 0] S512x1000) (hb : FTy.bits .bf16 < FTy.bits .f32) (k : Fin 512) (q : Fin 1000) :
    (truncf (F := Ideal) .bf16 (transpose S512x1000 [1, 0] (shapeCast S1000x512 (extractStridedSlice S1000x1x512 ![0, o, 0] A hs) hc) ht) hb :
        FVec Ideal S512x1000 .bf16) (ix2 k q) = A (ix3 q t k) := by
  show transpose S512x1000 [1, 0] (shapeCast S1000x512 (extractStridedSlice S1000x1x512 ![0, o, 0] A hs) hc) ht (ix2 k q) = _
  rw [transpose_apply [1, 0] _ ht (ix2 k q) (ix2 q k) (fun b => by
    match b with
    | ⟨0, _⟩ => rfl
    | ⟨1, _⟩ => rfl)]
  rw [shapeCast_apply _ hc (ix2 q k) (ix3 q (0 : Fin 1) k) (by
    rw [Shape.rowMajor_val_three, Shape.rowMajor_val_two]
    show (q.val * 1 + 0) * 512 + k.val = q.val * 512 + k.val
    omega)]
  exact extractStridedSlice_apply _ A hs (ix3 q (0 : Fin 1) k) (ix3 q t k) (fun a => by
    match a with
    | ⟨0, _⟩ => show q.val = 0 + q.val; omega
    | ⟨1, _⟩ => show t.val = o + 0; omega
    | ⟨2, _⟩ => show k.val = 0 + k.val; omega)

/-- A column of the bias laid out as a row, at `(0, q)`. -/
theorem biasRow_apply (B : S1000x2.Idx → EReal) (o : Nat) (t : Fin 2) (ho : o = t.val)
    (hs : S1000x2.Slices ![0, o] S1000x1) (hc1 : S1000x1.ShapeCasts S1000) (hc2 : S1000.ShapeCasts S1x1000) (q : Fin 1000) :
    shapeCast S1x1000 (shapeCast S1000 (extractStridedSlice S1000x1 ![0, o] B hs) hc1) hc2 (ix2 (0 : Fin 1) q) = B (ix2 q t) := by
  rw [shapeCast_apply _ hc2 (ix2 (0 : Fin 1) q) (ix1 q) (by
    rw [Shape.rowMajor_val_one, Shape.rowMajor_val_two]
    show q.val = 0 * 1000 + q.val
    omega)]
  rw [shapeCast_apply _ hc1 (ix1 q) (ix2 q (0 : Fin 1)) (by
    rw [Shape.rowMajor_val_one, Shape.rowMajor_val_two]
    show q.val * 1 + 0 = q.val
    omega)]
  exact extractStridedSlice_apply _ B hs (ix2 q (0 : Fin 1)) (ix2 q t) (fun a => by
    match a with
    | ⟨0, _⟩ => show q.val = 0 + q.val; omega
    | ⟨1, _⟩ => show t.val = o + 0; omega)

variable (m : (ℓ : Loc nD τ sig) → Buf (Elt Ideal) ℓ)

/-- The first weight matrix as the region finds it. -/
theorem V_main_v3 (c : Dev nD) (k : Fin 512) (q : Fin 1000) :
    (V m c main_v3 : S512x1000.Idx → EReal) (ix2 k q)
      = (m ((c : Thread nD τ).loc main_arg1) : S1000x2x512.Idx → EReal) (ix3 q (0 : Fin 2) k) := by
  have e : (V m c main_v3 : S512x1000.Idx → EReal)
      = (truncf (F := Ideal) .bf16 (transpose S512x1000 [1, 0] (shapeCast S1000x512 (extractStridedSlice S1000x1x512 ![0, 0, 0]
          (m ((c : Thread nD τ).loc main_arg1) : S1000x2x512.Idx → EReal) slices_S1000x2x512_S1000x1x512_0_0_0)
          shapeCasts_S1000x1x512_S1000x512) transposes_S1000x512_S512x1000_1_0) bitsLt_bf16_f32 : FVec Ideal S512x1000 .bf16) := by
    show StableHlo.after hostOps0 (fun b => m (c, b)) (Proc.devRef .tc main_v3) = _
    after_results
    rfl
  rw [e]
  exact weightMatrix_apply _ 0 0 rfl _ _ _ _ k q

/-- The second weight matrix as the region finds it. -/
theorem V_main_v7 (c : Dev nD) (k : Fin 512) (q : Fin 1000) :
    (V m c main_v7 : S512x1000.Idx → EReal) (ix2 k q)
      = (m ((c : Thread nD τ).loc main_arg1) : S1000x2x512.Idx → EReal) (ix3 q (1 : Fin 2) k) := by
  have e : (V m c main_v7 : S512x1000.Idx → EReal)
      = (truncf (F := Ideal) .bf16 (transpose S512x1000 [1, 0] (shapeCast S1000x512 (extractStridedSlice S1000x1x512 ![0, 1, 0]
          (m ((c : Thread nD τ).loc main_arg1) : S1000x2x512.Idx → EReal) slices_S1000x2x512_S1000x1x512_0_1_0)
          shapeCasts_S1000x1x512_S1000x512) transposes_S1000x512_S512x1000_1_0) bitsLt_bf16_f32 : FVec Ideal S512x1000 .bf16) := by
    show StableHlo.after hostOps0 (fun b => m (c, b)) (Proc.devRef .tc main_v7) = _
    after_results
    rfl
  rw [e]
  exact weightMatrix_apply _ 1 1 rfl _ _ _ _ k q

/-- The first bias row as the region finds it. -/
theorem V_main_v10 (c : Dev nD) (q : Fin 1000) :
    (V m c main_v10 : S1x1000.Idx → EReal) (ix2 (0 : Fin 1) q)
      = (m ((c : Thread nD τ).loc main_arg2) : S1000x2.Idx → EReal) (ix2 q (0 : Fin 2)) := by
  have e : (V m c main_v10 : S1x1000.Idx → EReal)
      = shapeCast S1x1000 (shapeCast S1000 (extractStridedSlice S1000x1 ![0, 0]
          (m ((c : Thread nD τ).loc main_arg2) : S1000x2.Idx → EReal) slices_S1000x2_S1000x1_0_0) shapeCasts_S1000x1_S1000)
          shapeCasts_S1000_S1x1000 := by
    show StableHlo.after hostOps0 (fun b => m (c, b)) (Proc.devRef .tc main_v10) = _
    after_results
    rfl
  rw [e]
  exact biasRow_apply _ 0 0 rfl _ _ _ q

/-- The second bias row as the region finds it. -/
theorem V_main_v13 (c : Dev nD) (q : Fin 1000) :
    (V m c main_v13 : S1x1000.Idx → EReal) (ix2 (0 : Fin 1) q)
      = (m ((c : Thread nD τ).loc main_arg2) : S1000x2.Idx → EReal) (ix2 q (1 : Fin 2)) := by
  have e : (V m c main_v13 : S1x1000.Idx → EReal)
      = shapeCast S1x1000 (shapeCast S1000 (extractStridedSlice S1000x1 ![0, 1]
          (m ((c : Thread nD τ).loc main_arg2) : S1000x2.Idx → EReal) slices_S1000x2_S1000x1_0_1) shapeCasts_S1000x1_S1000)
          shapeCasts_S1000_S1x1000 := by
    show StableHlo.after hostOps0 (fun b => m (c, b)) (Proc.devRef .tc main_v13) = _
    after_results
    rfl
  rw [e]
  exact biasRow_apply _ 1 1 rfl _ _ _ q

end Cert.KernelIdeal.Entry

end
-- ==== Proof.KernelBlocks.lean ====
/-
  From the blocks the kernel writes back to its two result arrays.

  The grid has 32 points; point `t` holds rows `512 t … 512 t + 511` of `x`, both weight matrices and both bias rows whole,
  and writes back rows `512 t … 512 t + 511` of each result array. With the arrays the region finds read through the host
  prefix (Proof/KernelEntry.lean), a logit inside the block at `(p, q)` is the logit of row `512 t + p` and class `q`
  (Proof/Spec.lean), so what point `t` writes back to result array `e` is block `t` of the one function
  `(r, q) ↦ resultAt r q e`; the 32 blocks cover the 16384 rows, so each result array ends holding that function.
-/
import proofs.«150298_j61838939127881_2_alg».proof.Proof.Gen.KernelIdeal.Frame
import proofs.«150298_j61838939127881_2_alg».proof.Proof.KernelPayload
import proofs.«150298_j61838939127881_2_alg».proof.Proof.KernelEntry
import proofs.«150298_j61838939127881_2_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL.Sem Cert.KernelIdeal.Payload Cert.ClassifierSpec Cert.PairLogSoftmax
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-- The index maps over the grid: the `x` window and the two result windows are at block row `t`, the others at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks at a point -/

/-- The `x` block at point `t` is rows `512 t …` of `x`. -/
theorem xBlock_apply (c : Dev nD) (t : Fin cfg0.N) (y : S512x512.Idx) (k : S16384x512.Idx)
    (hk0 : (k 0).val = 512 * t.val + (y 0).val) (hk1 : (k 1).val = (y 1).val) :
    (iblk m c 0 t : Vec Ideal S512x512 .f32) y = (m ((c : Thread nD τ).loc main_arg0) : S16384x512.Idx → EReal) k := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * (y 0).val = (k 0).val; rw [e0, hk0]; omega
  | ⟨1, _⟩ => show win0_0.index t 1 * 512 + 1 * (y 1).val = (k 1).val; rw [e1, hk1]; omega

/-- The first weight matrix's block is the whole matrix. -/
theorem w0Block_apply (c : Dev nD) (t : Fin cfg0.N) (y : S512x1000.Idx) :
    (iblk m c 1 t : Vec Ideal S512x1000 .bf16) y = (V m c main_v3 : S512x1000.Idx → EReal) y := by
  obtain ⟨-, -, e0, e1, -⟩ := idx_facts t
  unfold iblk
  rw [View.read_apply]
  show V m c main_v3 _ = V m c main_v3 y
  congr 1
  funext a
  apply Fin.ext
  match a with
  | ⟨0, _⟩ => show win0_1.index t 0 * 512 + 1 * (y 0).val = (y 0).val; rw [e0]; omega
  | ⟨1, _⟩ => show win0_1.index t 1 * 1000 + 1 * (y 1).val = (y 1).val; rw [e1]; omega

/-- The second weight matrix's block is the whole matrix. -/
theorem w1Block_apply (c : Dev nD) (t : Fin cfg0.N) (y : S512x1000.Idx) :
    (iblk m c 2 t : Vec Ideal S512x1000 .bf16) y = (V m c main_v7 : S512x1000.Idx → EReal) y := by
  obtain ⟨-, -, -, -, e0, e1, -⟩ := idx_facts t
  unfold iblk
  rw [View.read_apply]
  show V m c main_v7 _ = V m c main_v7 y
  congr 1
  funext a
  apply Fin.ext
  match a with
  | ⟨0, _⟩ => show win0_2.index t 0 * 512 + 1 * (y 0).val = (y 0).val; rw [e0]; omega
  | ⟨1, _⟩ => show win0_2.index t 1 * 1000 + 1 * (y 1).val = (y 1).val; rw [e1]; omega

/-- The first bias row's block is the whole row. -/
theorem b0Block_apply (c : Dev nD) (t : Fin cfg0.N) (y : S1x1000.Idx) :
    (iblk m c 3 t : Vec Ideal S1x1000 .f32) y = (V m c main_v10 : S1x1000.Idx → EReal) y := by
  obtain ⟨-, -, -, -, -, -, e0, e1, -⟩ := idx_facts t
  unfold iblk
  rw [View.read_apply]
  show V m c main_v10 _ = V m c main_v10 y
  congr 1
  funext a
  apply Fin.ext
  match a with
  | ⟨0, _⟩ => show win0_3.index t 0 * 1 + 1 * (y 0).val = (y 0).val; rw [e0]; omega
  | ⟨1, _⟩ => show win0_3.index t 1 * 1000 + 1 * (y 1).val = (y 1).val; rw [e1]; omega

/-- The second bias row's block is the whole row. -/
theorem b1Block_apply (c : Dev nD) (t : Fin cfg0.N) (y : S1x1000.Idx) :
    (iblk m c 4 t : Vec Ideal S1x1000 .f32) y = (V m c main_v13 : S1x1000.Idx → EReal) y := by
  obtain ⟨-, -, -, -, -, -, -, -, e0, e1, -⟩ := idx_facts t
  unfold iblk
  rw [View.read_apply]
  show V m c main_v13 _ = V m c main_v13 y
  congr 1
  funext a
  apply Fin.ext
  match a with
  | ⟨0, _⟩ => show win0_4.index t 0 * 1 + 1 * (y 0).val = (y 0).val; rw [e0]; omega
  | ⟨1, _⟩ => show win0_4.index t 1 * 1000 + 1 * (y 1).val = (y 1).val; rw [e1]; omega

/-! ## A block's logits are the array's -/

/-- Column 0: the block's logit at `(p, q)` is the logit of row `r = 512 t + p`, class `q`, column 0. -/
theorem blockLogit0 (c : Dev nD) (t : Fin cfg0.N) (p : Fin 512) (q : Fin 1000) (r : Fin 16384)
    (hr : r.val = 512 * t.val + p.val) :
    blockLogit (iblk m c 0 t) (iblk m c 1 t) (iblk m c 3 t) p q
      = logit (m ((c : Thread nD τ).loc main_arg0)) (m ((c : Thread nD τ).loc main_arg1)) (m ((c : Thread nD τ).loc main_arg2)) r q 0 := by
  unfold blockLogit logit
  rw [b0Block_apply, Entry.V_main_v10]
  refine congrArg (· + _) (Finset.sum_congr rfl fun i _ => ?_)
  rw [xBlock_apply m c t (ix2 p i) (ix2 r i) hr rfl, w0Block_apply, Entry.V_main_v3]

/-- Column 1 likewise. -/
theorem blockLogit1 (c : Dev nD) (t : Fin cfg0.N) (p : Fin 512) (q : Fin 1000) (r : Fin 16384)
    (hr : r.val = 512 * t.val + p.val) :
    blockLogit (iblk m c 0 t) (iblk m c 2 t) (iblk m c 4 t) p q
      = logit (m ((c : Thread nD τ).loc main_arg0)) (m ((c : Thread nD τ).loc main_arg1)) (m ((c : Thread nD τ).loc main_arg2)) r q 1 := by
  unfold blockLogit logit
  rw [b1Block_apply, Entry.V_main_v13]
  refine congrArg (· + _) (Finset.sum_congr rfl fun i _ => ?_)
  rw [xBlock_apply m c t (ix2 p i) (ix2 r i) hr rfl, w1Block_apply, Entry.V_main_v7]

/-! ## The two result arrays -/

/-- Result array `e` as one function of the arguments: the log-softmax entry `e` of each row's and class's pair. -/
def column (x : (⟨2, ![16384, 512]⟩ : Shape).Idx → EReal) (W : (⟨3, ![1000, 2, 512]⟩ : Shape).Idx → EReal)
    (b : (⟨2, ![1000, 2]⟩ : Shape).Idx → EReal) (e : Fin 2) : (⟨2, ![16384, 1000]⟩ : Shape).Idx → EReal :=
  fun i => resultAt x W b (i 0) (i 1) e

/-- What point `t` writes back to the first result array is block `t` of `column 0`. -/
theorem flushed5_eq (c : Dev nD) (t : Fin cfg0.N) :
    (dats m 0 c).flushed 5 t = ((cfg0.win 5).blk t).view.read (Elt Ideal)
      (column (m ((c : Thread nD τ).loc main_arg0)) (m ((c : Thread nD τ).loc main_arg1)) (m ((c : Thread nD τ).loc main_arg2)) 0) := by
  obtain ⟨-, -, -, -, -, -, -, -, -, -, e0, e1, -⟩ := idx_facts t
  show (cfg0.win 5).cut (grid0.coords t) ((dats m 0 c).after 5 t) = _
  rw [after0_5]
  unfold out0_5
  rw [View.canon_unit_zero hz]
  simp only [View.ld_unit_zero (S := S512x512) hz, View.ld_unit_zero (S := S512x1000) hz, View.ld_unit_zero (S := S1x1000) hz]
  funext j
  rw [View.read_apply]
  have hj : (j : S512x1000.Idx) = ix2 (j 0) (j 1) := eq_ix2 j
  have hr : ((((cfg0.win 5).blk t).view.emb j) 0).val = 512 * t.val + (j 0).val := by
    show win0_5.index t 0 * 512 + 1 * (j 0).val = _; rw [e0]; omega
  have hq : (((cfg0.win 5).blk t).view.emb j) 1 = j 1 := Fin.ext (by
    show win0_5.index t 1 * 1000 + 1 * (j 1).val = (j 1).val; rw [e1]; omega)
  refine ((congrArg (k0_pay5 (F := Ideal) (iblk m c 0 t) (iblk m c 1 t) (iblk m c 3 t) (iblk m c 2 t) (iblk m c 4 t)) hj).trans
    (pay5_apply (iblk m c 0 t) (iblk m c 1 t) (iblk m c 3 t) (iblk m c 2 t) (iblk m c 4 t) (j 0) (j 1))).trans ?_
  unfold column resultAt
  rw [hq, blockLogit0 m c t (j 0) (j 1) _ hr, blockLogit1 m c t (j 0) (j 1) _ hr]
  rfl

/-- What point `t` writes back to the second result array is block `t` of `column 1`. -/
theorem flushed6_eq (c : Dev nD) (t : Fin cfg0.N) :
    (dats m 0 c).flushed 6 t = ((cfg0.win 6).blk t).view.read (Elt Ideal)
      (column (m ((c : Thread nD τ).loc main_arg0)) (m ((c : Thread nD τ).loc main_arg1)) (m ((c : Thread nD τ).loc main_arg2)) 1) := by
  obtain ⟨-, -, -, -, -, -, -, -, -, -, -, -, e0, e1⟩ := idx_facts t
  show (cfg0.win 6).cut (grid0.coords t) ((dats m 0 c).after 6 t) = _
  rw [after0_6]
  unfold out0_6
  rw [View.canon_unit_zero hz]
  simp only [View.ld_unit_zero (S := S512x512) hz, View.ld_unit_zero (S := S512x1000) hz, View.ld_unit_zero (S := S1x1000) hz]
  funext j
  rw [View.read_apply]
  have hj : (j : S512x1000.Idx) = ix2 (j 0) (j 1) := eq_ix2 j
  have hr : ((((cfg0.win 6).blk t).view.emb j) 0).val = 512 * t.val + (j 0).val := by
    show win0_6.index t 0 * 512 + 1 * (j 0).val = _; rw [e0]; omega
  have hq : (((cfg0.win 6).blk t).view.emb j) 1 = j 1 := Fin.ext (by
    show win0_6.index t 1 * 1000 + 1 * (j 1).val = (j 1).val; rw [e1]; omega)
  refine ((congrArg (k0_pay6 (F := Ideal) (iblk m c 0 t) (iblk m c 1 t) (iblk m c 3 t) (iblk m c 2 t) (iblk m c 4 t)) hj).trans
    (pay6_apply (iblk m c 0 t) (iblk m c 1 t) (iblk m c 3 t) (iblk m c 2 t) (iblk m c 4 t) (j 0) (j 1))).trans ?_
  unfold column resultAt
  rw [hq, blockLogit0 m c t (j 0) (j 1) _ hr, blockLogit1 m c t (j 0) (j 1) _ hr]
  rfl

/-- Row `r` is in the block of point `r / 512`, for either result window. -/
theorem cover5 (i : S16384x1000.Idx) :
    ∃ t : Fin cfg0.N, (cfg0.win 5).flush t = true ∧ i ∈ ((cfg0.win 5).blk t).view.set := by
  have h0 : (i 0).val < 16384 := (i 0).isLt
  have h1 : (i 1).val < 1000 := (i 1).isLt
  have hN : (i 0).val / 512 < cfg0.N := by rw [show cfg0.N = 32 from N_0]; omega
  refine ⟨⟨(i 0).val / 512, hN⟩, flush0_5 _, ?_⟩
  obtain ⟨-, -, -, -, -, -, -, -, -, -, e0, e1, -⟩ := idx_facts ⟨(i 0).val / 512, hN⟩
  show i ∈ ((View.whole main_v14_0).slice (win0_5.rect ⟨(i 0).val / 512, hN⟩)).set
  rw [View.set_slice_whole, Rect.mem_set_unit]
  intro a
  match a with
  | ⟨0, _⟩ =>
    show win0_5.index _ 0 * 512 ≤ (i 0).val ∧ (i 0).val < win0_5.index _ 0 * 512 + 512
    rw [e0]; show (i 0).val / 512 * 512 ≤ (i 0).val ∧ (i 0).val < (i 0).val / 512 * 512 + 512; omega
  | ⟨1, _⟩ =>
    show win0_5.index _ 1 * 1000 ≤ (i 1).val ∧ (i 1).val < win0_5.index _ 1 * 1000 + 1000
    rw [e1]; omega

theorem cover6 (i : S16384x1000.Idx) :
    ∃ t : Fin cfg0.N, (cfg0.win 6).flush t = true ∧ i ∈ ((cfg0.win 6).blk t).view.set := by
  have h0 : (i 0).val < 16384 := (i 0).isLt
  have h1 : (i 1).val < 1000 := (i 1).isLt
  have hN : (i 0).val / 512 < cfg0.N := by rw [show cfg0.N = 32 from N_0]; omega
  refine ⟨⟨(i 0).val / 512, hN⟩, flush0_6 _, ?_⟩
  obtain ⟨-, -, -, -, -, -, -, -, -, -, -, -, e0, e1⟩ := idx_facts ⟨(i 0).val / 512, hN⟩
  show i ∈ ((View.whole main_v14_1).slice (win0_6.rect ⟨(i 0).val / 512, hN⟩)).set
  rw [View.set_slice_whole, Rect.mem_set_unit]
  intro a
  match a with
  | ⟨0, _⟩ =>
    show win0_6.index _ 0 * 512 ≤ (i 0).val ∧ (i 0).val < win0_6.index _ 0 * 512 + 512
    rw [e0]; show (i 0).val / 512 * 512 ≤ (i 0).val ∧ (i 0).val < (i 0).val / 512 * 512 + 512; omega
  | ⟨1, _⟩ =>
    show win0_6.index _ 1 * 1000 ≤ (i 1).val ∧ (i 1).val < win0_6.index _ 1 * 1000 + 1000
    rw [e1]; omega

/-- The first result array after the region. -/
theorem final5 (c : Dev nD) : (dats m 0 c).arrAt 5 cfg0.N
    = column (m ((c : Thread nD τ).loc main_arg0)) (m ((c : Thread nD τ).loc main_arg1)) (m ((c : Thread nD τ).loc main_arg2)) 0 :=
  (dats m 0 c).arrAt_eq_of_cover 5 _ (fun t _ => flushed5_eq m c t) cover5

/-- The second result array after the region. -/
theorem final6 (c : Dev nD) : (dats m 0 c).arrAt 6 cfg0.N
    = column (m ((c : Thread nD τ).loc main_arg0)) (m ((c : Thread nD τ).loc main_arg1)) (m ((c : Thread nD τ).loc main_arg2)) 1 :=
  (dats m 0 c).arrAt_eq_of_cover 6 _ (fun t _ => flushed6_eq m c t) cover6

end Cert.KernelIdeal.Blocks

end
-- ==== Proof.KernelRun.lean ====
/-
  The kernel's run, read back.

  After the region the host gives each of the two result arrays `[16384, 1000]` a unit last axis and concatenates the two
  along it: entry `(r, c, e)` of the program's result is entry `(r, c)` of result array `e`, which the region left at the
  log-softmax entry `e` of row `r`'s and class `c`'s pair of logits (Proof/KernelBlocks.lean). So the program's result is
  `ClassifierSpec.result` of the three arguments.
-/
import proofs.«150298_j61838939127881_2_alg».proof.Proof.Gen.KernelIdeal.Frame
import proofs.«150298_j61838939127881_2_alg».proof.Proof.KernelBlocks
import Idealize.ShloMosaic.Lib.Pipeline.Value
import Idealize.ShloMosaic.Lib.ValueIdx
import Idealize.ShloMosaic.Lib.StableHlo.Run

noncomputable section

namespace Cert.KernelIdeal.Run

open Cert.KernelIdeal Cert.KernelIdeal.Gen Idealize.ShloMosaic Idealize.ShloMosaic.TcCoe Idealize.ShloMosaic.ValueIdx
open Idealize.SL.Sem Idealize.ShloMosaic.StableHlo Cert.ClassifierSpec Cert.KernelIdeal.Blocks
open Idealize.ShloMosaic.Pipeline (Dat)

/-- Two `[16384, 1000]` arrays stacked along a new last axis. -/
def stacked (u0 u1 : S16384x1000.Idx → EReal) : S16384x1000x2.Idx → EReal :=
  concatenate S16384x1000x2 2
    [⟨S16384x1000x1, broadcastInDim S16384x1000x1 ![0, 1] bcast_S16384x1000_S16384x1000x1_0_1 u0⟩,
     ⟨S16384x1000x1, broadcastInDim S16384x1000x1 ![0, 1] bcast_S16384x1000_S16384x1000x1_0_1 u1⟩]
    concatenates_S16384x1000x1_S16384x1000x1_S16384x1000x2_d2

/-- An array given a unit last axis, at `(r, c, 0)`. -/
theorem unitLast_apply (u : S16384x1000.Idx → EReal) (r : Fin 16384) (c : Fin 1000) :
    broadcastInDim S16384x1000x1 ![0, 1] bcast_S16384x1000_S16384x1000x1_0_1 u (ix3 r c (0 : Fin 1)) = u (ix2 r c) :=
  broadcastInDim_apply _ bcast_S16384x1000_S16384x1000x1_0_1 u (ix3 r c (0 : Fin 1)) (ix2 r c) (fun a => by
    match a with
    | ⟨0, _⟩ => show r.val = if (16384 : Nat) = 1 then 0 else r.val; rw [if_neg (by decide)]
    | ⟨1, _⟩ => show c.val = if (1000 : Nat) = 1 then 0 else c.val; rw [if_neg (by decide)])

/-- The stack at last coordinate 0 is the first array. -/
theorem stacked_zero (u0 u1 : S16384x1000.Idx → EReal) (r : Fin 16384) (c : Fin 1000) :
    stacked u0 u1 (ix3 r c (0 : Fin 2)) = u0 (ix2 r c) := by
  unfold stacked
  exact (concatenate_pair_apply_left (t := S16384x1000x2) (s₁ := S16384x1000x1) (s₂ := S16384x1000x1) (2 : Fin 3)
    (broadcastInDim S16384x1000x1 ![0, 1] bcast_S16384x1000_S16384x1000x1_0_1 u0)
    (broadcastInDim S16384x1000x1 ![0, 1] bcast_S16384x1000_S16384x1000x1_0_1 u1)
    concatenates_S16384x1000x1_S16384x1000x1_S16384x1000x2_d2 (ix3 r c (0 : Fin 2)) rfl (ix3 r c (0 : Fin 1)) (fun b => by
      match b with
      | ⟨0, _⟩ => rfl
      | ⟨1, _⟩ => rfl
      | ⟨2, _⟩ => rfl)).trans (unitLast_apply u0 r c)

/-- The stack at last coordinate 1 is the second array. -/
theorem stacked_one (u0 u1 : S16384x1000.Idx → EReal) (r : Fin 16384) (c : Fin 1000) :
    stacked u0 u1 (ix3 r c (1 : Fin 2)) = u1 (ix2 r c) := by
  unfold stacked
  exact (concatenate_pair_apply_right (t := S16384x1000x2) (s₁ := S16384x1000x1) (s₂ := S16384x1000x1) (2 : Fin 3)
    (broadcastInDim S16384x1000x1 ![0, 1] bcast_S16384x1000_S16384x1000x1_0_1 u0)
    (broadcastInDim S16384x1000x1 ![0, 1] bcast_S16384x1000_S16384x1000x1_0_1 u1)
    concatenates_S16384x1000x1_S16384x1000x1_S16384x1000x2_d2 (ix3 r c (1 : Fin 2)) rfl rfl (ix3 r c (0 : Fin 1)) (fun b hb => by
      match b with
      | ⟨0, _⟩ => rfl
      | ⟨1, _⟩ => rfl
      | ⟨2, _⟩ => exact absurd rfl hb) rfl).trans (unitLast_apply u1 r c)

/-- The two result arrays stacked, at `(r, c, e)`: the classifier's result there. -/
theorem stacked_apply (x : S16384x512.Idx → EReal) (W : S1000x2x512.Idx → EReal) (b : S1000x2.Idx → EReal) (r : Fin 16384)
    (c : Fin 1000) (e : Fin 2) : stacked (column x W b 0) (column x W b 1) (ix3 r c e) = resultAt x W b r c e := by
  match e with
  | ⟨0, _⟩ => exact (stacked_zero _ _ r c).trans rfl
  | ⟨1, _⟩ => exact (stacked_one _ _ r c).trans rfl

/-- The two result arrays stacked are the classifier's result. -/
theorem stacked_columns (x : S16384x512.Idx → EReal) (W : S1000x2x512.Idx → EReal) (b : S1000x2.Idx → EReal) :
    stacked (column x W b 0) (column x W b 1) = result x W b :=
  funext fun i => (congrArg (stacked (column x W b 0) (column x W b 1)) (eq_ix3 (n0 := 16384) (n1 := 1000) (n2 := 2) i)).trans
    (stacked_apply x W b (i 0) (i 1) (i 2))

variable (m : (ℓ : Loc nD τ sig) → Buf (Elt Ideal) ℓ) (ρ : Dev nD → PrngReg)

/-- What the host operations after the region leave in the program's result buffer. -/
theorem tail_eq (c : Dev nD) :
    Pipeline.afterTail₀ cfgs (dats m) 0 (V0 m) [hostOps1] c main_v17
      = stacked ((dats m 0 c).arrAt 5 cfg0.N) ((dats m 0 c).arrAt 6 cfg0.N) := by
  unfold Pipeline.afterTail₀ stacked
  show StableHlo.after hostOps1 _ (Proc.devRef .tc main_v17) = _
  after_results
  have e5 : Pipeline.withArrays (cfgs 0).spec c (V0 m c) (fun w => (dats m 0 c).arrAt w (cfgs 0).N) (Proc.devRef .tc main_v14_0)
      = (dats m 0 c).arrAt 5 cfg0.N := Pipeline.withArrays_arr spec0 launch0.win.arr_inj c _ _ 5
  have e6 : Pipeline.withArrays (cfgs 0).spec c (V0 m c) (fun w => (dats m 0 c).arrAt w (cfgs 0).N) (Proc.devRef .tc main_v14_1)
      = (dats m 0 c).arrAt 6 cfg0.N := Pipeline.withArrays_arr spec0 launch0.win.arr_inj c _ _ 6
  rw [e5, e6]

/-- Every weakly fair execution of the kernel program terminates with its result buffer at the classifier's result of
    the arguments' launch contents, and the arguments unchanged. -/
theorem run : θ_run defs (onTc (τ := τ) (main (F := Ideal))) ⟨m, fun _ => 0, ρ⟩ fun r => ∀ c : Dev nD,
      r.2.mem ((c.tc : Thread nD τ).loc main_v17)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans
        ((tail_eq m c).trans (by rw [final5, final6]; exact stacked_columns _ _ _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefRun.lean ====
/-
  The reference program's run, read back.

  The reference is a straight line of nineteen host operations: the contraction of `x` with `W` over the feature axis,
  the bias broadcast over the rows and added (the LOGITS, `[16384, 1000, 2]`), and then the log-softmax over the last
  axis as the host spells it — the maximum over that axis (a reduce from `-∞`, joined with `-∞` once more), the logits
  shifted by it, their exponentials summed over the axis from `0`, the sum's logarithm, and the shifted logits minus it.
  `out` is that composition as one term of the three arguments, built from the stages `logits`, `rowMax`, `shifted`;
  `run` says every weakly fair execution of the program ends with the result buffer at `out` of the arguments and the
  arguments unchanged. The maximum over the last axis is kept folded while the result buffer's contents are computed:
  the equation between the operations' fold and `out` never looks inside it.
-/
import proofs.«150298_j61838939127881_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the called function's in its call's place at the call's buffers (each buffer's
    type is its value's, so an operation on typed references is the operation on the buffers). -/
abbrev ops : List (HloOp τ sig (Elt F)) :=
  [ binary main_arg0 main_arg1 main_v0 ((fun l r => Host.dotGeneral dot_S16384x512_S1000x2x512_S16384x1000x2_1_2_0_01_n_n none l r) : (⟨S16384x512, .f32⟩ : BufTy).Contents (Elt F) → (⟨S1000x2x512, .f32⟩ : BufTy).Contents (Elt F) → (⟨S16384x1000x2, .f32⟩ : BufTy).Contents (Elt F)),
    unary main_arg2 main_v1 (broadcastInDim S1x1000x2 ![1, 2] bcast_S1000x2_S1x1000x2_1_2 : (⟨S1000x2, .f32⟩ : BufTy).Contents (Elt F) → (⟨S1x1000x2, .f32⟩ : BufTy).Contents (Elt F)),
    unary main_v1 main_v2 (broadcastInDim S16384x1000x2 ![0, 1, 2] bcast_S1x1000x2_S16384x1000x2_0_1_2 : (⟨S1x1000x2, .f32⟩ : BufTy).Contents (Elt F) → (⟨S16384x1000x2, .f32⟩ : BufTy).Contents (Elt F)),
    binary main_v0 main_v2 main_v3 (addf : (⟨S16384x1000x2, .f32⟩ : BufTy).Contents (Elt F) → (⟨S16384x1000x2, .f32⟩ : BufTy).Contents (Elt F) → (⟨S16384x1000x2, .f32⟩ : BufTy).Contents (Elt F)),
    nullary main_call0_cst (constant S_ .f32 0xFF800000#32 : (⟨S_, .f32⟩ : BufTy).Contents (Elt F)),
    binary main_v3 main_call0_cst main_call0_v0 ((fun x v => Host.reduce FloatOps.maximumf x v reducesTo_S16384x1000x2_S16384x1000_d2 h_S_) : (⟨S16384x1000x2, .f32⟩ : BufTy).Contents (Elt F) → (⟨S_, .f32⟩ : BufTy).Contents (Elt F) → (⟨S16384x1000, .f32⟩ : BufTy).Contents (Elt F)),
    nullary main_call0_cst_0 (constant S_ .f32 0xFF800000#32 : (⟨S_, .f32⟩ : BufTy).Contents (Elt F)),
    unary main_call0_cst_0 main_call0_v1 (broadcastInDim S16384x1000 ![] bcast_S_S16384x1000 : (⟨S_, .f32⟩ : BufTy).Contents (Elt F) → (⟨S16384x1000, .f32⟩ : BufTy).Contents (Elt F)),
    binary main_call0_v1 main_call0_v0 main_call0_v2 (maximumf : (⟨S16384x1000, .f32⟩ : BufTy).Contents (Elt F) → (⟨S16384x1000, .f32⟩ : BufTy).Contents (Elt F) → (⟨S16384x1000, .f32⟩ : BufTy).Contents (Elt F)),
    unary main_call0_v2 main_call0_v3 (broadcastInDim S16384x1000x1 ![0, 1] bcast_S16384x1000_S16384x1000x1_0_1 : (⟨S16384x1000, .f32⟩ : BufTy).Contents (Elt F) → (⟨S16384x1000x1, .f32⟩ : BufTy).Contents (Elt F)),
    unary main_call0_v3 main_call0_v4 (broadcastInDim S16384x1000x2 ![0, 1, 2] bcast_S16384x1000x1_S16384x1000x2_0_1_2 : (⟨S16384x1000x1, .f32⟩ : BufTy).Contents (Elt F) → (⟨S16384x1000x2, .f32⟩ : BufTy).Contents (Elt F)),
    binary main_v3 main_call0_v4 main_call0_v5 (subf : (⟨S16384x1000x2, .f32⟩ : BufTy).Contents (Elt F) → (⟨S16384x1000x2, .f32⟩ : BufTy).Contents (Elt F) → (⟨S16384x1000x2, .f32⟩ : BufTy).Contents (Elt F)),
    unary main_call0_v5 main_call0_v6 (Host.exp : (⟨S16384x1000x2, .f32⟩ : BufTy).Contents (Elt F) → (⟨S16384x1000x2, .f32⟩ : BufTy).Contents (Elt F)),
    nullary main_call0_cst_1 (constant S_ .f32 0x00000000#32 : (⟨S_, .f32⟩ : BufTy).Contents (Elt F)),
    binary main_call0_v6 main_call0_cst_1 main_call0_v7 ((fun x v => Host.reduceAdd x v reducesTo_S16384x1000x2_S16384x1000_d2 h_S_) : (⟨S16384x1000x2, .f32⟩ : BufTy).Contents (Elt F) → (⟨S_, .f32⟩ : BufTy).Contents (Elt F) → (⟨S16384x1000, .f32⟩ : BufTy).Contents (Elt F)),
    unary main_call0_v7 main_call0_v8 (broadcastInDim S16384x1000x1 ![0, 1] bcast_S16384x1000_S16384x1000x1_0_1 : (⟨S16384x1000, .f32⟩ : BufTy).Contents (Elt F) → (⟨S16384x1000x1, .f32⟩ : BufTy).Contents (Elt F)),
    unary main_call0_v8 main_call0_v9 (Host.log : (⟨S16384x1000x1, .f32⟩ : BufTy).Contents (Elt F) → (⟨S16384x1000x1, .f32⟩ : BufTy).Contents (Elt F)),
    unary main_call0_v9 main_call0_v10 (broadcastInDim S16384x1000x2 ![0, 1, 2] bcast_S16384x1000x1_S16384x1000x2_0_1_2 : (⟨S16384x1000x1, .f32⟩ : BufTy).Contents (Elt F) → (⟨S16384x1000x2, .f32⟩ : BufTy).Contents (Elt F)),
    binary main_call0_v5 main_call0_v10 main_v4 (subf : (⟨S16384x1000x2, .f32⟩ : BufTy).Contents (Elt F) → (⟨S16384x1000x2, .f32⟩ : BufTy).Contents (Elt F) → (⟨S16384x1000x2, .f32⟩ : BufTy).Contents (Elt F)) ]

attribute [local irreducible] Host.reduce in
/-- The program is that straight line: the reduce stays folded while the two spellings of each operation are compared. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub ..⟩

/-! ## The result as stages -/

/-- The logits: `x` contracted with `W` over the feature axis, plus the bias broadcast over the rows. -/
def logits (x : (⟨S16384x512, .f32⟩ : BufTy).Contents (Elt F)) (W : (⟨S1000x2x512, .f32⟩ : BufTy).Contents (Elt F))
    (b : (⟨S1000x2, .f32⟩ : BufTy).Contents (Elt F)) : (⟨S16384x1000x2, .f32⟩ : BufTy).Contents (Elt F) :=
  addf (Host.dotGeneral dot_S16384x512_S1000x2x512_S16384x1000x2_1_2_0_01_n_n none x W)
    (broadcastInDim S16384x1000x2 ![0, 1, 2] bcast_S1x1000x2_S16384x1000x2_0_1_2
      (broadcastInDim S1x1000x2 ![1, 2] bcast_S1000x2_S1x1000x2_1_2 b))

/-- The maximum over the last axis: the reduce from `-∞`, joined with a broadcast `-∞`. -/
def rowMax (L : (⟨S16384x1000x2, .f32⟩ : BufTy).Contents (Elt F)) : (⟨S16384x1000, .f32⟩ : BufTy).Contents (Elt F) :=
  maximumf (broadcastInDim S16384x1000 ![] bcast_S_S16384x1000 (constant S_ .f32 0xFF800000#32))
    (Host.reduce FloatOps.maximumf L (constant S_ .f32 0xFF800000#32) reducesTo_S16384x1000x2_S16384x1000_d2 h_S_)

/-- The logits shifted by their maximum over the last axis. -/
def shifted (L : (⟨S16384x1000x2, .f32⟩ : BufTy).Contents (Elt F)) : (⟨S16384x1000x2, .f32⟩ : BufTy).Contents (Elt F) :=
  subf L (broadcastInDim S16384x1000x2 ![0, 1, 2] bcast_S16384x1000x1_S16384x1000x2_0_1_2
    (broadcastInDim S16384x1000x1 ![0, 1] bcast_S16384x1000_S16384x1000x1_0_1 (rowMax L)))

/-- The shifted logits minus the logarithm of the sum, over the last axis, of their exponentials. -/
def lessLogSum (S : (⟨S16384x1000x2, .f32⟩ : BufTy).Contents (Elt F)) : (⟨S16384x1000x2, .f32⟩ : BufTy).Contents (Elt F) :=
  subf S (broadcastInDim S16384x1000x2 ![0, 1, 2] bcast_S16384x1000x1_S16384x1000x2_0_1_2
    (Host.log (broadcastInDim S16384x1000x1 ![0, 1] bcast_S16384x1000_S16384x1000x1_0_1
      (Host.reduceAdd (Host.exp S) (constant S_ .f32 0x00000000#32) reducesTo_S16384x1000x2_S16384x1000_d2 h_S_))))

/-- The result of the arguments. -/
def out (x : (⟨S16384x512, .f32⟩ : BufTy).Contents (Elt F)) (W : (⟨S1000x2x512, .f32⟩ : BufTy).Contents (Elt F))
    (b : (⟨S1000x2, .f32⟩ : BufTy).Contents (Elt F)) : (⟨S16384x1000x2, .f32⟩ : BufTy).Contents (Elt F) :=
  lessLogSum (shifted (logits x W b))

attribute [local irreducible] Host.reduce in
/-- The operations' fold at the result buffer is `out` of the fold's start at the argument buffers, by computation: each
    operation's result is its function of its operands' buffers, and leaves every other buffer as it was. -/
theorem out_eq (V : Valuation τ sig (Elt F)) :
    after ops V (main_v4 : DevRef τ sig)
      = out (V (main_arg0 : DevRef τ sig)) (V (main_arg1 : DevRef τ sig)) (V (main_arg2 : DevRef τ sig)) := by
  unfold out lessLogSum shifted rowMax logits
  after_results

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

/-- Every weakly fair execution of the reference terminates with the result buffer at `out` of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefLogits.lean ====
/-
  The reference's logits read at an index.

  The contraction of `x` with `W` over the feature axis is, at `(r, c, t)`, the textbook sum `∑ k, x (r, k) · W (c, t, k)`:
  the contraction index is its one coordinate and the operand indices are `(r, k)` and `(c, t, k)`. The bias broadcast
  over the rows is the bias at `(c, t)`. So the logits at `(r, c, t)` are `logit r c t` (Proof/Spec.lean).
-/
import proofs.«150298_j61838939127881_2_alg».proof.Proof.RefRun
import proofs.«150298_j61838939127881_2_alg».proof.Proof.Spec
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open Cert.ClassifierSpec Cert.PairLogSoftmax
open scoped BigOperators

/-! ## The contraction's index facts -/

theorem lhs0 (i : S16384x1000x2.Idx) (q : dot_S16384x512_S1000x2x512_S16384x1000x2_1_2_0_01_n_n.contr.Idx) : (dot_S16384x512_S1000x2x512_S16384x1000x2_1_2_0_01_n_n.lhsIdx i q 0).val = (i 0).val := by
  unfold DotDims.lhsIdx
  rw [dif_neg (show ¬(0 : Fin S16384x512.rank) ∈ dot_S16384x512_S1000x2x512_S16384x1000x2_1_2_0_01_n_n.lhsBatch by decide),
    dif_pos (show (0 : Fin S16384x512.rank) ∈ dot_S16384x512_S1000x2x512_S16384x1000x2_1_2_0_01_n_n.lhsNonContracting by decide)]
  rfl

theorem lhs1 (i : S16384x1000x2.Idx) (q : dot_S16384x512_S1000x2x512_S16384x1000x2_1_2_0_01_n_n.contr.Idx) : (dot_S16384x512_S1000x2x512_S16384x1000x2_1_2_0_01_n_n.lhsIdx i q 1).val = (q ⟨0, by decide⟩).val :=
  dot_S16384x512_S1000x2x512_S16384x1000x2_1_2_0_01_n_n.lhsIdx_val_of_single rfl i q

theorem rhs0 (i : S16384x1000x2.Idx) (q : dot_S16384x512_S1000x2x512_S16384x1000x2_1_2_0_01_n_n.contr.Idx) : (dot_S16384x512_S1000x2x512_S16384x1000x2_1_2_0_01_n_n.rhsIdx i q 0).val = (i 1).val := by
  unfold DotDims.rhsIdx
  rw [dif_neg (show ¬(0 : Fin S1000x2x512.rank) ∈ dot_S16384x512_S1000x2x512_S16384x1000x2_1_2_0_01_n_n.rhsBatch by decide),
    dif_pos (show (0 : Fin S1000x2x512.rank) ∈ dot_S16384x512_S1000x2x512_S16384x1000x2_1_2_0_01_n_n.rhsNonContracting by decide)]
  rfl

theorem rhs1 (i : S16384x1000x2.Idx) (q : dot_S16384x512_S1000x2x512_S16384x1000x2_1_2_0_01_n_n.contr.Idx) : (dot_S16384x512_S1000x2x512_S16384x1000x2_1_2_0_01_n_n.rhsIdx i q 1).val = (i 2).val := by
  unfold DotDims.rhsIdx
  rw [dif_neg (show ¬(1 : Fin S1000x2x512.rank) ∈ dot_S16384x512_S1000x2x512_S16384x1000x2_1_2_0_01_n_n.rhsBatch by decide),
    dif_pos (show (1 : Fin S1000x2x512.rank) ∈ dot_S16384x512_S1000x2x512_S16384x1000x2_1_2_0_01_n_n.rhsNonContracting by decide)]
  rfl

theorem rhs2 (i : S16384x1000x2.Idx) (q : dot_S16384x512_S1000x2x512_S16384x1000x2_1_2_0_01_n_n.contr.Idx) : (dot_S16384x512_S1000x2x512_S16384x1000x2_1_2_0_01_n_n.rhsIdx i q 2).val = (q ⟨0, by decide⟩).val :=
  dot_S16384x512_S1000x2x512_S16384x1000x2_1_2_0_01_n_n.rhsIdx_val_of_single rfl i q

/-- The contraction at `(r, c, t)`: row `r` of `x` against the weight vector `W (c, t, ·)`. -/
theorem contraction_apply (x : S16384x512.Idx → EReal) (W : S1000x2x512.Idx → EReal) (r : Fin 16384) (c : Fin 1000)
    (t : Fin 2) :
    Host.dotGeneral (F := Ideal) (φ₁ := .f32) (φ₂ := .f32) dot_S16384x512_S1000x2x512_S16384x1000x2_1_2_0_01_n_n none x W (ix3 r c t)
      = ∑ k : Fin 512, x (ix2 r k) * W (ix3 c t k) := by
  simp only [Host.dotGeneral]
  rw [Ideal.dotGeneral_apply, ← Equiv.sum_comp (contrEquiv1 dot_S16384x512_S1000x2x512_S16384x1000x2_1_2_0_01_n_n 512 rfl rfl).symm]
  refine Finset.sum_congr rfl fun k _ => ?_
  have hk := contrEquiv1_symm_val dot_S16384x512_S1000x2x512_S16384x1000x2_1_2_0_01_n_n 512 rfl rfl k
  have el : dot_S16384x512_S1000x2x512_S16384x1000x2_1_2_0_01_n_n.lhsIdx (ix3 r c t) ((contrEquiv1 dot_S16384x512_S1000x2x512_S16384x1000x2_1_2_0_01_n_n 512 rfl rfl).symm k) = ix2 r k := funext fun a => Fin.ext (by
    match a with
    | ⟨0, _⟩ => exact lhs0 _ _
    | ⟨1, _⟩ => exact (lhs1 _ _).trans hk)
  have er : dot_S16384x512_S1000x2x512_S16384x1000x2_1_2_0_01_n_n.rhsIdx (ix3 r c t) ((contrEquiv1 dot_S16384x512_S1000x2x512_S16384x1000x2_1_2_0_01_n_n 512 rfl rfl).symm k) = ix3 c t k := funext fun a => Fin.ext (by
    match a with
    | ⟨0, _⟩ => exact rhs0 _ _
    | ⟨1, _⟩ => exact rhs1 _ _
    | ⟨2, _⟩ => exact (rhs2 _ _).trans hk)
  rw [el, er]

/-- The bias broadcast over the rows, at `(r, c, t)`: the bias at `(c, t)`. -/
theorem biasRows_apply (b : S1000x2.Idx → EReal) (r : Fin 16384) (c : Fin 1000) (t : Fin 2) :
    broadcastInDim S16384x1000x2 ![0, 1, 2] bcast_S1x1000x2_S16384x1000x2_0_1_2
      (broadcastInDim S1x1000x2 ![1, 2] bcast_S1000x2_S1x1000x2_1_2 b) (ix3 r c t) = b (ix2 c t) := by
  rw [broadcastInDim_apply _ bcast_S1x1000x2_S16384x1000x2_0_1_2 _ (ix3 r c t) (ix3 (0 : Fin 1) c t) (fun a => by
    match a with
    | ⟨0, _⟩ => show (0 : Nat) = if (1 : Nat) = 1 then 0 else _; rw [if_pos rfl]
    | ⟨1, _⟩ => show c.val = if (1000 : Nat) = 1 then 0 else c.val; rw [if_neg (by decide)]
    | ⟨2, _⟩ => show t.val = if (2 : Nat) = 1 then 0 else t.val; rw [if_neg (by decide)])]
  exact broadcastInDim_apply _ bcast_S1000x2_S1x1000x2_1_2 b (ix3 (0 : Fin 1) c t) (ix2 c t) (fun a => by
    match a with
    | ⟨0, _⟩ => show c.val = if (1000 : Nat) = 1 then 0 else c.val; rw [if_neg (by decide)]
    | ⟨1, _⟩ => show t.val = if (2 : Nat) = 1 then 0 else t.val; rw [if_neg (by decide)])

/-- The logits at `(r, c, t)`. -/
theorem logits_apply (x : S16384x512.Idx → EReal) (W : S1000x2x512.Idx → EReal) (b : S1000x2.Idx → EReal) (r : Fin 16384)
    (c : Fin 1000) (t : Fin 2) : logits (F := Ideal) x W b (ix3 r c t) = logit x W b r c t := by
  unfold logits logit
  show _ + _ = _
  rw [contraction_apply, biasRows_apply]

end Cert.ReferenceIdeal.RefRead

end
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.RefSoftmax.lean ====
/-
  The reference's log-softmax stages read at an index.

  The maximum over the last axis at `(r, c)` is the fold of `max` from `⊥` over the pair `L (r, c, ·)`, joined with `⊥`; a
  `[16384, 1000]` array given a unit last axis and broadcast along it is, at `(r, c, t)`, its entry `(r, c)`; the host's
  float sum over the last axis at `(r, c)` is `0 +` the sum over the pair. So the shifted logits at `(r, c, t)` are
  `L (r, c, t) - max`, and the last stage subtracts the logarithm of the pair's sum of exponentials.
-/
import proofs.«150298_j61838939127881_2_alg».proof.Proof.RefRun
import proofs.«150298_j61838939127881_2_alg».proof.Proof.Spec
import proofs.«150298_j61838939127881_2_alg».proof.Proof.LibRowReduce
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open Cert.ClassifierSpec Cert.PairLogSoftmax
open scoped BigOperators

/-- An array over `(r, c)` given a unit last axis and broadcast along it, at `(r, c, t)`: its entry `(r, c)`. -/
theorem alongLast_apply (v : S16384x1000.Idx → EReal) (r : Fin 16384) (c : Fin 1000) (t : Fin 2) :
    broadcastInDim S16384x1000x2 ![0, 1, 2] bcast_S16384x1000x1_S16384x1000x2_0_1_2
      (broadcastInDim S16384x1000x1 ![0, 1] bcast_S16384x1000_S16384x1000x1_0_1 v) (ix3 r c t) = v (ix2 r c) := by
  rw [broadcastInDim_apply _ bcast_S16384x1000x1_S16384x1000x2_0_1_2 _ (ix3 r c t) (ix3 r c (0 : Fin 1)) (fun a => by
    match a with
    | ⟨0, _⟩ => show r.val = if (16384 : Nat) = 1 then 0 else r.val; rw [if_neg (by decide)]
    | ⟨1, _⟩ => show c.val = if (1000 : Nat) = 1 then 0 else c.val; rw [if_neg (by decide)]
    | ⟨2, _⟩ => show (0 : Nat) = if (1 : Nat) = 1 then 0 else _; rw [if_pos rfl])]
  exact broadcastInDim_apply _ bcast_S16384x1000_S16384x1000x1_0_1 v (ix3 r c (0 : Fin 1)) (ix2 r c) (fun a => by
    match a with
    | ⟨0, _⟩ => show r.val = if (16384 : Nat) = 1 then 0 else r.val; rw [if_neg (by decide)]
    | ⟨1, _⟩ => show c.val = if (1000 : Nat) = 1 then 0 else c.val; rw [if_neg (by decide)])

/-- The pattern of `-∞` denotes `⊥`. -/
theorem negInf : Ideal.ofBits .f32 0xFF800000#32 = ⊥ := by simp [Ideal.ofBits, Ideal.ieee]

attribute [local irreducible] Host.reduce in
/-- The host's maximum over the last axis from `-∞`, at `(r, c)`: the fold of `max` from `⊥` over the pair. -/
theorem reduceMax_apply (L : S16384x1000x2.Idx → EReal) (r : Fin 16384) (c : Fin 1000) :
    Host.reduce (FloatOps.maximumf (F := Ideal) (φ := .f32)) L (constant (F := Ideal) S_ .f32 0xFF800000#32)
        reducesTo_S16384x1000x2_S16384x1000_d2 h_S_ (ix2 r c)
      = (Finset.univ : Finset (Fin 2)).fold max ⊥ fun k => L (ix3 r c k) :=
  (Cert.LibRowReduce.hostReduce_last3 (FloatOps.maximumf (F := Ideal) (φ := .f32)) L (constant (F := Ideal) S_ .f32 0xFF800000#32)
    reducesTo_S16384x1000x2_S16384x1000_d2 (by decide) h_S_ r c).trans
    (congrArg (fun v : EReal => Finset.fold max v (fun k => L (ix3 r c k)) (Finset.univ : Finset (Fin 2))) negInf)

attribute [local irreducible] Host.reduce in
/-- The maximum over the last axis at `(r, c)`: the pair's fold of `max`, joined with `⊥`. -/
theorem rowMax_apply (L : S16384x1000x2.Idx → EReal) (r : Fin 16384) (c : Fin 1000) :
    rowMax (F := Ideal) L (ix2 r c) = foldMax fun k => L (ix3 r c k) := by
  unfold rowMax foldMax
  refine (maximumf_apply (φ := .f32) _ _ (ix2 r c)).trans ?_
  rw [reduceMax_apply]
  exact congrArg (fun v : EReal => max v (Finset.fold max ⊥ (fun k => L (ix3 r c k)) (Finset.univ : Finset (Fin 2)))) negInf

/-- The shifted logits at `(r, c, t)`. -/
theorem shifted_apply (L : S16384x1000x2.Idx → EReal) (r : Fin 16384) (c : Fin 1000) (t : Fin 2) :
    shifted (F := Ideal) L (ix3 r c t) = L (ix3 r c t) - foldMax fun k => L (ix3 r c k) := by
  unfold shifted
  refine (subf_apply (φ := .f32) _ _ (ix3 r c t)).trans ?_
  rw [alongLast_apply, rowMax_apply]

/-- The host's logarithm at an index. -/
theorem hostLog_apply (v : S16384x1000x1.Idx → EReal) (j : S16384x1000x1.Idx) :
    Host.log (F := Ideal) (φ := .f32) v j = Ideal.log (v j) := rfl

attribute [local irreducible] Ideal.hostReduceAdd in
/-- The host's sum of the exponentials over the last axis from `0`, at `(r, c)`. -/
theorem sumExp_apply (S : S16384x1000x2.Idx → EReal) (r : Fin 16384) (c : Fin 1000) :
    Host.reduceAdd (F := Ideal) (φ := .f32) (Host.exp (F := Ideal) (φ := .f32) S) (constant S_ .f32 0x00000000#32) reducesTo_S16384x1000x2_S16384x1000_d2 h_S_ (ix2 r c)
      = 0 + ∑ k : Fin 2, Ideal.exp (S (ix3 r c k)) := by
  show Ideal.hostReduceAdd reducesTo_S16384x1000x2_S16384x1000_d2 (Host.exp (F := Ideal) (φ := .f32) S) (Ideal.ofBits .f32 0x00000000#32) (ix2 r c) = _
  rw [Cert.LibRowReduce.hostReduceAdd_last3 (Host.exp (F := Ideal) (φ := .f32) S) (Ideal.ofBits .f32 0x00000000#32) reducesTo_S16384x1000x2_S16384x1000_d2 (by decide) r c,
    Ideal.ofBits_zero_f32]
  rfl

/-- The shifted logits minus the logarithm of their exponentials' sum, at `(r, c, t)`. -/
theorem lessLogSum_apply (S : S16384x1000x2.Idx → EReal) (r : Fin 16384) (c : Fin 1000) (t : Fin 2) :
    lessLogSum (F := Ideal) S (ix3 r c t) = S (ix3 r c t) - Ideal.log (0 + ∑ k : Fin 2, Ideal.exp (S (ix3 r c k))) := by
  unfold lessLogSum
  refine (subf_apply (φ := .f32) _ _ (ix3 r c t)).trans ?_
  rw [broadcastInDim_apply _ bcast_S16384x1000x1_S16384x1000x2_0_1_2 _ (ix3 r c t) (ix3 r c (0 : Fin 1)) (fun a => by
    match a with
    | ⟨0, _⟩ => show r.val = if (16384 : Nat) = 1 then 0 else r.val; rw [if_neg (by decide)]
    | ⟨1, _⟩ => show c.val = if (1000 : Nat) = 1 then 0 else c.val; rw [if_neg (by decide)]
    | ⟨2, _⟩ => show (0 : Nat) = if (1 : Nat) = 1 then 0 else _; rw [if_pos rfl]),
    hostLog_apply,
    broadcastInDim_apply _ bcast_S16384x1000_S16384x1000x1_0_1 _ (ix3 r c (0 : Fin 1)) (ix2 r c) (fun a => by
    match a with
    | ⟨0, _⟩ => show r.val = if (16384 : Nat) = 1 then 0 else r.val; rw [if_neg (by decide)]
    | ⟨1, _⟩ => show c.val = if (1000 : Nat) = 1 then 0 else c.val; rw [if_neg (by decide)]),
    sumExp_apply]

end Cert.ReferenceIdeal.RefRead

end
-- ==== Proof.RefRead.lean ====
/-
  The reference's result read at an index: at `(r, c, t)` it is the pair of logits' log-softmax at entry `t` in the shifted
  arrangement (Proof/PairLogSoftmax.lean, Proof/Spec.lean), by the stages read one at a time (Proof/RefLogits.lean,
  Proof/RefSoftmax.lean).
-/
import proofs.«150298_j61838939127881_2_alg».proof.Proof.RefRun
import proofs.«150298_j61838939127881_2_alg».proof.Proof.Spec
import proofs.«150298_j61838939127881_2_alg».proof.Proof.RefLogits
import proofs.«150298_j61838939127881_2_alg».proof.Proof.RefSoftmax
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open Cert.ClassifierSpec Cert.PairLogSoftmax
open scoped BigOperators

/-- THE REFERENCE'S RESULT at `(r, c, t)`: the shifted arrangement of the pair of logits' log-softmax. -/
theorem out_apply (x : S16384x512.Idx → EReal) (W : S1000x2x512.Idx → EReal) (b : S1000x2.Idx → EReal) (r : Fin 16384)
    (c : Fin 1000) (t : Fin 2) : out (F := Ideal) x W b (ix3 r c t) = resultShiftedAt x W b r c t := by
  unfold out resultShiftedAt shiftedForm
  rw [lessLogSum_apply]
  simp only [shifted_apply, logits_apply]

end Cert.ReferenceIdeal.RefRead

end
-- ==== Proof.Finite.lean ====
/-
  The precondition, read back: every argument entry is a real number.

  The precondition is the conjunction of three `all`s, one per argument, of `|entry| < +∞`. Each conjunct is 1, each
  `all` has a 1 at every index, and an extended real whose absolute value `max x (-x)` is below `⊤` is neither infinity.
-/
import proofs.«150298_j61838939127881_2_alg».proof.Pre_finite_inputs
import proofs.«150298_j61838939127881_2_alg».proof.Proof.LibMoment
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.LibMoment Cert.Pre_finite_inputs

instance : Subsingleton S_.Idx := ⟨fun a b => funext fun d => d.elim0⟩

/-- The pattern of `+∞` denotes `⊤`. -/
theorem posInf : Ideal.ofBits .f32 0x7F800000#32 = ⊤ := by simp [Ideal.ofBits, Ideal.ieee]

/-- An entry whose absolute value compares below `+∞` is a real number. -/
theorem isReal_of_cmp (x : EReal) (h : Ideal.cmp .olt (max x (-x)) (Ideal.ofBits .f32 0x7F800000#32) = 1#1) : IsReal x := by
  rw [posInf] at h
  refine isReal_of_abs_lt_top ?_
  by_contra hn
  have h0 : Ideal.cmp .olt (max x (-x)) ⊤ = 0#1 := by
    show BitVec.ofBool (decide (max x (-x) < ⊤)) = 0#1
    rw [decide_eq_false hn]
    rfl
  rw [h0] at h
  exact absurd h (by decide)

/-- Under the precondition every entry of the three arguments is a real number. -/
theorem all_real [Facts] (a0 : FVec Ideal S16384x512 .f32) (a1 : FVec Ideal S1000x2x512 .f32) (a2 : FVec Ideal S1000x2 .f32)
    (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.1 h0
  obtain ⟨h0', h1⟩ := IntOp.andi_eq_one.1 h01
  exact ⟨fun i => isReal_of_cmp _ (Host.reduce_andi_all _ _ _ _ ValueIdx.ix0 h0' i),
    fun i => isReal_of_cmp _ (Host.reduce_andi_all _ _ _ _ ValueIdx.ix0 h1 i),
    fun i => isReal_of_cmp _ (Host.reduce_andi_all _ _ _ _ ValueIdx.ix0 h2 i)⟩

end Cert.Pre_finite_inputs.Finite

end
-- ==== Proof.lean ====
/-
  The certificate of the fused two-way classifier against its reference.

  The kernel computes, for every row `r` of `x : [16384, 512]` and every class `c` of `W : [1000, 2, 512]`, `b : [1000, 2]`,
  the two logits `l_t = (∑ k, x (r, k) · W (c, t, k)) + b (c, t)` and stores `l_t - (max l_0 l_1 + log (exp (l_0 - max) +
  exp (l_1 - max)))`; the reference computes the same logits by one contraction and applies the log-softmax over the last
  axis as `(l_t - M) - log (0 + ∑_k exp (l_k - M))` with `M` the maximum. On the extended reals a change of float format
  is the identity and the kernel's matrix product into a zero accumulator is the reference's contraction, so both
  programs compute their results from the SAME logits; the two arrangements of the log-softmax agree whenever the
  logits are real numbers, which the precondition (every argument entry finite) gives: `a - (M + s) = (a - M) - s` in `ℝ`
  (Proof/PairLogSoftmax.lean). The law needs the precondition: at an infinite logit `⊤ - ⊤` is not `0`.

  The pieces: Proof/Spec.lean (the result as one function of the arguments), Proof/KernelPayload.lean … KernelRun.lean
  (the kernel program ends with its result buffer at that function: the body's stores at an entry, the arrays the
  region finds, the 32 written-back blocks covering each result array, the two arrays stacked), Proof/RefRun.lean and
  RefRead.lean (the reference ends at the shifted arrangement of the same logits), Proof/Finite.lean (the precondition
  read back). The two kernel frames are the generated ones; the reference's frame is its run with the result dropped;
  the idealization rewrote nothing, so `preserves` is `True`.
-/
import proofs.«150298_j61838939127881_2_alg».proof.Defs
import proofs.«150298_j61838939127881_2_alg».proof.Proof.Gen.Kernel
import proofs.«150298_j61838939127881_2_alg».proof.Proof.Gen.Kernel.Skeleton
import proofs.«150298_j61838939127881_2_alg».proof.Proof.Gen.Kernel.Launch
import proofs.«150298_j61838939127881_2_alg».proof.Proof.Gen.Kernel.Points
import proofs.«150298_j61838939127881_2_alg».proof.Proof.Gen.Kernel.Frame
import proofs.«150298_j61838939127881_2_alg».proof.Proof.Gen.KernelIdeal
import proofs.«150298_j61838939127881_2_alg».proof.Proof.Gen.KernelIdeal.Skeleton
import proofs.«150298_j61838939127881_2_alg».proof.Proof.Gen.KernelIdeal.Launch
import proofs.«150298_j61838939127881_2_alg».proof.Proof.Gen.KernelIdeal.Points
import proofs.«150298_j61838939127881_2_alg».proof.Proof.Gen.KernelIdeal.Frame
import proofs.«150298_j61838939127881_2_alg».proof.Proof.Gen.ReferenceIdeal
import proofs.«150298_j61838939127881_2_alg».proof.Proof.Gen.Pre_finite_inputs
import proofs.«150298_j61838939127881_2_alg».proof.Proof.Spec
import proofs.«150298_j61838939127881_2_alg».proof.Proof.KernelRun
import proofs.«150298_j61838939127881_2_alg».proof.Proof.RefRun
import proofs.«150298_j61838939127881_2_alg».proof.Proof.RefRead
import proofs.«150298_j61838939127881_2_alg».proof.Proof.Finite
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with the classifier's result of the arguments: the kernel by its run, the reference by its run, its
    result read at an index, and the law joining the two arrangements of the log-softmax on real logits. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  obtain ⟨hx, hW, hb⟩ := Cert.Pre_finite_inputs.Finite.all_real _ _ _ (hpre c)
  funext i
  exact (congrArg (Cert.ReferenceIdeal.RefRun.out _ _ _) (eq_ix3 (n0 := 16384) (n1 := 1000) (n2 := 2) i)).trans
    ((Cert.ReferenceIdeal.RefRead.out_apply _ _ _ (i 0) (i 1) (i 2)).trans
      (Cert.ClassifierSpec.resultShiftedAt_eq hx hW hb (i 0) (i 1) (i 2)))

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
